-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x4096 : Shape := ⟨3, ![8, 1024, 4096]⟩
abbrev S4096x4096 : Shape := ⟨2, ![4096, 4096]⟩
abbrev S4096x64 : Shape := ⟨2, ![4096, 64]⟩
abbrev S64 : Shape := ⟨1, ![64]⟩
abbrev S64x4096 : Shape := ⟨2, ![64, 4096]⟩
abbrev S4096 : Shape := ⟨1, ![4096]⟩
abbrev S_ : Shape := ⟨0, ![]⟩

class Facts : Prop where
  bcast_S_S8x1024x4096 : S_.BroadcastsInDim S8x1024x4096 (![] : Fin 0 → Fin S8x1024x4096.rank)
  reducesTo_S8x1024x4096_S_d0_1_2 : S8x1024x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096x64 : S_.BroadcastsInDim S4096x64 (![] : Fin 0 → Fin S4096x64.rank)
  reducesTo_S4096x64_S_d0_1 : S4096x64.ReducesTo [0, 1] S_
  bcast_S_S64 : S_.BroadcastsInDim S64 (![] : Fin 0 → Fin S64.rank)
  reducesTo_S64_S_d0 : S64.ReducesTo [0] S_
  bcast_S_S64x4096 : S_.BroadcastsInDim S64x4096 (![] : Fin 0 → Fin S64x4096.rank)
  reducesTo_S64x4096_S_d0_1 : S64x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S64x4096 .f32) (main_arg5 : FVec F S4096 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x4096 .f32 := Host.absf main_arg4
  let main_cst_6 : FVec F S_ .f32 := constant S_ .f32 0x7F800000#32
  let main_v20 : FVec F S64x4096 .f32 := broadcastInDim S64x4096 ![] bcast_S_S64x4096 main_cst_6
  let main_v21 : IVec S64x4096 1 := cmpf .olt main_v19 main_v20
  let main_c_7 : IVec S_ 1 := constantI S_ 1 1#1
  let main_v22 : IVec S_ 1 := (fun x v => Host.reduce IntOp.andi x v reducesTo_S64x4096_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S8x1024x4096 .f32) (main_arg1 : FVec F S4096x4096 .f32) (main_arg2 : FVec F S4096x64 .f32) (main_arg3 : FVec F S64 .f32) (main_arg4 : FVec F S64x4096 .f32) (main_arg5 : FVec F S4096 .f32) : IVec S_ 1 :=
  let main_v0 : FVec F S8x1024x4096 .f32 := Host.absf main_arg0
  let main_cst : FVec F S_ .f32 := constant S_ .f32 0x7F800000#32
  let main_v1 : FVec F S8x1024x4096 .f32 := broadcastInDim S8x1024x4096 ![] bcast_S_S8x1024x4096 main_cst
  let main_v2 : IVec S8x1024x4096 1 := cmpf .olt main_v0 main_v1
  let main_c : IVec S_ 1 := constantI S_ 1 1#1
  let main_v3 : IVec S_ 1 := (fun x v => Host.reduce IntOp.andi x v reducesTo_S8x1024x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x64 .f32 := Host.absf main_arg2
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_c_3 : IVec S_ 1 := constantI S_ 1 1#1
  let main_v12 : IVec S_ 1 := (fun x v => Host.reduce IntOp.andi x v reducesTo_S4096x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S8x1024x4096 : Shape := ⟨3, ![8, 1024, 4096]⟩
abbrev S4096x4096 : Shape := ⟨2, ![4096, 4096]⟩
abbrev S4096x64 : Shape := ⟨2, ![4096, 64]⟩
abbrev S64 : Shape := ⟨1, ![64]⟩
abbrev S64x4096 : Shape := ⟨2, ![64, 4096]⟩
abbrev S4096 : Shape := ⟨1, ![4096]⟩
abbrev S1x64 : Shape := ⟨2, ![1, 64]⟩
abbrev S1024x1024 : Shape := ⟨2, ![1024, 1024]⟩
abbrev S1024x64 : Shape := ⟨2, ![1024, 64]⟩
abbrev S64x1024 : Shape := ⟨2, ![64, 1024]⟩
abbrev S8192x4096 : Shape := ⟨2, ![8192, 4096]⟩
abbrev S1x4096 : Shape := ⟨2, ![1, 4096]⟩
abbrev S1024x256 : Shape := ⟨2, ![1024, 256]⟩
abbrev S2048x256 : Shape := ⟨2, ![2048, 256]⟩
abbrev S1x2048 : Shape := ⟨2, ![1, 2048]⟩
abbrev S1024x2048 : Shape := ⟨2, ![1024, 2048]⟩

abbrev nBuf : Space → Nat
  | .hbm => 12
  | .vmem => 18
  | .smem => 0
  | _ => 0

abbrev bufTy : (tb : Table) → Fin (tcTables nBuf tb) → BufTy
  | .hbm, ⟨0, _⟩ => ⟨S8x1024x4096, .f32⟩
  | .hbm, ⟨1, _⟩ => ⟨S4096x4096, .f32⟩
  | .hbm, ⟨2, _⟩ => ⟨S4096x64, .f32⟩
  | .hbm, ⟨3, _⟩ => ⟨S64, .f32⟩
  | .hbm, ⟨4, _⟩ => ⟨S64x4096, .f32⟩
  | .hbm, ⟨5, _⟩ => ⟨S4096, .f32⟩
  | .hbm, ⟨6, _⟩ => ⟨S1x64, .f32⟩
  | .hbm, ⟨7, _⟩ => ⟨S4096x4096, .bf16⟩
  | .hbm, ⟨8, _⟩ => ⟨S8192x4096, .f32⟩
  | .hbm, ⟨9, _⟩ => ⟨S1x4096, .f32⟩
  | .hbm, ⟨10, _⟩ => ⟨S8192x4096, .f32⟩
  | .hbm, ⟨11, _⟩ => ⟨S8x1024x4096, .f32⟩
  | .local _ .vmem, ⟨0, _⟩ => ⟨S1024x1024, .f32⟩
  | .local _ .vmem, ⟨1, _⟩ => ⟨S1024x1024, .f32⟩
  | .local _ .vmem, ⟨2, _⟩ => ⟨S1024x64, .f32⟩
  | .local _ .vmem, ⟨3, _⟩ => ⟨S1024x64, .f32⟩
  | .local _ .vmem, ⟨4, _⟩ => ⟨S1x64, .f32⟩
  | .local _ .vmem, ⟨5, _⟩ => ⟨S64x1024, .f32⟩
  | .local _ .vmem, ⟨6, _⟩ => ⟨S64x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x256, .f32⟩
  | .local _ .vmem, ⟨10, _⟩ => ⟨S1024x256, .f32⟩
  | .local _ .vmem, ⟨11, _⟩ => ⟨S2048x256, .bf16⟩
  | .local _ .vmem, ⟨12, _⟩ => ⟨S2048x256, .bf16⟩
  | .local _ .vmem, ⟨13, _⟩ => ⟨S1x2048, .f32⟩
  | .local _ .vmem, ⟨14, _⟩ => ⟨S1x2048, .f32⟩
  | .local _ .vmem, ⟨15, _⟩ => ⟨S1024x2048, .f32⟩
  | .local _ .vmem, ⟨16, _⟩ => ⟨S1024x2048, .f32⟩
  | .local _ .vmem, ⟨17, _⟩ => ⟨S1024x2048, .f32⟩
  | _, _ => ⟨S8x1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨3, ![8, 2, 16], ![false, false, false]⟩

def k1_cond2 (i : grid1.Coords) : BitVec 1 :=
  let arg2 : BitVec 32 := BitVec.ofNat 32 (i 2).val
  let c15_i32 : BitVec 32 := 15#32
  let v14 : BitVec 1 := Scalar.cmpi .eq arg2 c15_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  shapeCasts_S64_S1x64 : S64.ShapeCasts S1x64
  inb_S1024x64_S1024x64_0_0 : ∀ a, (![0, 0] : Fin 2 → Nat) a + S1024x64.size a ≤ S1024x64.size a
  h_S1024x64 : 0 < S1024x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S64x1024_S64x1024_0_0 : ∀ a, (![0, 0] : Fin 2 → Nat) a + S64x1024.size a ≤ S64x1024.size a
  h_S64x1024 : 0 < S64x1024.numel
  broadcasts_S1x64_S1024x64 : S1x64.Broadcasts S1024x64
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  shapeCasts_S8x1024x4096_S8192x4096 : S8x1024x4096.ShapeCasts S8192x4096
  shapeCasts_S4096_S1x4096 : S4096.ShapeCasts S1x4096
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  shapeCasts_S8192x4096_S8x1024x4096 : S8192x4096.ShapeCasts S8x1024x4096
  dot_S1024x64_S64x1024_S1024x1024_1_0_0_1_n_n_wf : DotDims.WF S1024x64 S64x1024 S1024x1024 [1] [0] [0] [1] [] []
  dot_S1024x256_S2048x256_S1024x2048_1_1_0_0_n_n_wf : DotDims.WF S1024x256 S2048x256 S1024x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .f32 = 32 ∨ (Rect.block (s := S4096x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S4096x64.size a
  hwx0_1 : ∀ i : grid0.Coords, EltTy.bits .f32 = 32 ∨ (Rect.block (s := S4096x64) S1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x1024.size a ≤ S64x4096.size a
  hwx0_3 : ∀ i : grid0.Coords, EltTy.bits .f32 = 32 ∨ (Rect.block (s := S64x4096) S64x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S4096x4096.size a
  hwx0_4 : ∀ i : grid0.Coords, EltTy.bits .bf16 = 32 ∨ (Rect.block (s := S4096x4096) S1024x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x4096.size a
  hwx1_0 : ∀ i : grid1.Coords, EltTy.bits .f32 = 32 ∨ (Rect.block (s := S8192x4096) S1024x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S4096x4096.size a
  hwx1_1 : ∀ i : grid1.Coords, EltTy.bits .bf16 = 32 ∨ (Rect.block (s := S4096x4096) S2048x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x4096.size a
  hwx1_2 : ∀ i : grid1.Coords, EltTy.bits .f32 = 32 ∨ (Rect.block (s := S1x4096) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S8192x4096.size a
  hwx1_3 : ∀ i : grid1.Coords, EltTy.bits .f32 = 32 ∨ (Rect.block (s := S8192x4096) S1024x2048.size (cc1_transform_3 i) (hinb1_3 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S1024x256_S2048x256_S1024x2048_1_1_0_0_n_n : DotDims S1024x256 S2048x256 S1024x2048 where
  lhsContracting := [1]
  rhsContracting := [1]
  lhsNonContracting := [0]
  rhsNonContracting := [0]
  lhsBatch := []
  rhsBatch := []
  wf := dot_S1024x256_S2048x256_S1024x2048_1_1_0_0_n_n_wf

abbrev win0_0 : Pipeline.Window sig grid0 :=
  Pipeline.Window.ofSpec (Memref.whole main_arg1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v2) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S1024x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8x1024x4096 : Shape := ⟨3, ![8, 1024, 4096]⟩
abbrev S4096x4096 : Shape := ⟨2, ![4096, 4096]⟩
abbrev S4096x64 : Shape := ⟨2, ![4096, 64]⟩
abbrev S64 : Shape := ⟨1, ![64]⟩
abbrev S64x4096 : Shape := ⟨2, ![64, 4096]⟩
abbrev S4096 : Shape := ⟨1, ![4096]⟩
abbrev S8x1024x64 : Shape := ⟨3, ![8, 1024, 64]⟩
abbrev S1x1x64 : Shape := ⟨3, ![1, 1, 64]⟩
abbrev S1x1x4096 : Shape := ⟨3, ![1, 1, 4096]⟩

abbrev nBuf : Space → Nat
  | .hbm => 16
  | .vmem => 0
  | .smem => 0
  | _ => 0

abbrev bufTy : (tb : Table) → Fin (tcTables nBuf tb) → BufTy
  | .hbm, ⟨0, _⟩ => ⟨S8x1024x4096, .f32⟩
  | .hbm, ⟨1, _⟩ => ⟨S4096x4096, .f32⟩
  | .hbm, ⟨2, _⟩ => ⟨S4096x64, .f32⟩
  | .hbm, ⟨3, _⟩ => ⟨S64, .f32⟩
  | .hbm, ⟨4, _⟩ => ⟨S64x4096, .f32⟩
  | .hbm, ⟨5, _⟩ => ⟨S4096, .f32⟩
  | .hbm, ⟨6, _⟩ => ⟨S8x1024x4096, .f32⟩
  | .hbm, ⟨7, _⟩ => ⟨S8x1024x64, .f32⟩
  | .hbm, ⟨8, _⟩ => ⟨S1x1x64, .f32⟩
  | .hbm, ⟨9, _⟩ => ⟨S8x1024x64, .f32⟩
  | .hbm, ⟨10, _⟩ => ⟨S8x1024x64, .f32⟩
  | .hbm, ⟨11, _⟩ => ⟨S8x1024x4096, .f32⟩
  | .hbm, ⟨12, _⟩ => ⟨S8x1024x4096, .f32⟩
  | .hbm, ⟨13, _⟩ => ⟨S1x1x4096, .f32⟩
  | .hbm, ⟨14, _⟩ => ⟨S8x1024x4096, .f32⟩
  | .hbm, ⟨15, _⟩ => ⟨S8x1024x4096, .f32⟩
  | _, _ => ⟨S8x1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S8x1024x64_0_1_2 : S1x1x64.BroadcastsInDim S8x1024x64 (![0, 1, 2] : Fin 3 → Fin S8x1024x64.rank)
  bcast_S4096_S1x1x4096_2 : S4096.BroadcastsInDim S1x1x4096 (![2] : Fin 1 → Fin S1x1x4096.rank)
  bcast_S1x1x4096_S8x1024x4096_0_1_2 : S1x1x4096.BroadcastsInDim S8x1024x4096 (![0, 1, 2] : Fin 3 → Fin S8x1024x4096.rank)
  dot_S8x1024x4096_S4096x4096_S8x1024x4096_2_1_01_0_n_n_wf : DotDims.WF S8x1024x4096 S4096x4096 S8x1024x4096 [2] [1] [0, 1] [0] [] []
  dot_S8x1024x4096_S64x4096_S8x1024x64_2_1_01_0_n_n_wf : DotDims.WF S8x1024x4096 S64x4096 S8x1024x64 [2] [1] [0, 1] [0] [] []
  dot_S8x1024x64_S4096x64_S8x1024x4096_2_1_01_0_n_n_wf : DotDims.WF S8x1024x64 S4096x64 S8x1024x4096 [2] [1] [0, 1] [0] [] []

variable [Facts₀]

def dot_S8x1024x4096_S4096x4096_S8x1024x4096_2_1_01_0_n_n : DotDims S8x1024x4096 S4096x4096 S8x1024x4096 where
  lhsContracting := [2]
  rhsContracting := [1]
  lhsNonContracting := [0, 1]
  rhsNonContracting := [0]
  lhsBatch := []
  rhsBatch := []
  wf := dot_S8x1024x4096_S4096x4096_S8x1024x4096_2_1_01_0_n_n_wf
def dot_S8x1024x4096_S64x4096_S8x1024x64_2_1_01_0_n_n : DotDims S8x1024x4096 S64x4096 S8x1024x64 where
  lhsContracting := [2]
  rhsContracting := [1]
  lhsNonContracting := [0, 1]
  rhsNonContracting := [0]
  lhsBatch := []
  rhsBatch := []
  wf := dot_S8x1024x4096_S64x4096_S8x1024x64_2_1_01_0_n_n_wf
def dot_S8x1024x64_S4096x64_S8x1024x4096_2_1_01_0_n_n : DotDims S8x1024x64 S4096x64 S8x1024x4096 where
  lhsContracting := [2]
  rhsContracting := [1]
  lhsNonContracting := [0, 1]
  rhsNonContracting := [0]
  lhsBatch := []
  rhsBatch := []
  wf := dot_S8x1024x64_S4096x64_S8x1024x4096_2_1_01_0_n_n_wf

class Facts : Prop extends Facts₀ where

variable [Facts]
-- ==== Proof.KB.Data.lean ====
/-
  Region data of the word-level kernel's two pipelines, at any float instance.

  Region 0 folds the rank-64 term into the main weight: at grid point (i, j) it writes the 1024×1024 block
  (i, j) of  W + (U · diag S) · V  from block (i, j) of W, row block i of U, the one row S and column block j of V.
  Region 1 multiplies: over the grid (i, j, k) it keeps in a scratch the partial sum over the first k + 1
  column blocks (256 columns each) of  X · Wᵀ  for row block i of X and row block j of the folded weight, and
  at k = 15 adds the bias row and stores block (i, j) of the result.
  This module only NAMES those contents point by point: what each window's staging buffer holds after the body
  (`dat0`, `dat1`), the carried partial sum (`acc`) and the invariant that carries it (`PhiS`).
-/
import proofs.«111724_j9663676416607_2_alg».proof.Proof.Gen.Kernel.Launch
import proofs.«111724_j9663676416607_2_alg».proof.Proof.Gen.Kernel.Skeleton
import proofs.«111724_j9663676416607_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-! ## Region 0 -/

/-- Window `w`'s block at point `t` of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Region 0's proof data: every input's buffer keeps its block; the output's buffer holds the block of
    W + (U · diag S) · V computed from the four input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay1 (iblk0 V c 1 t) (iblk0 V c 2 t) (iblk0 V c 3 t) (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = k0_pay1 (iblk0 V c 1 t) (iblk0 V c 2 t) (iblk0 V c 3 t) (iblk0 V c 0 t) := by dsimp only [dat0]

/-! ## Region 1 -/

/-- Window `w`'s block at point `t` of region 1, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The partial sum the scratch holds after point `n`: the product of the point's two blocks added to zero where
    a new run over `k` begins (`n ≡ 0 mod 16`), else to what the point before left. -/
def acc (c : Dev nD) : (n : ℕ) → n < cfg1.N → Vec F S1024x2048 .f32
  | 0, h => k1_pay2 (iblk1 V c 0 ⟨0, h⟩) (iblk1 V c 1 ⟨0, h⟩) (k1_pay1 (F := F))
  | n + 1, h => k1_pay2 (iblk1 V c 0 ⟨n + 1, h⟩) (iblk1 V c 1 ⟨n + 1, h⟩)
      (if (n + 1) % 16 = 0 then (k1_pay1 (F := F)) else acc c n (Nat.lt_of_succ_lt h))

/-- The scratch operand as a memref. -/
abbrev scM : Memref sig .tc .vmem S1024x2048 .f32 := Memref.whole cc1_scratch0

/-- The scoped buffers region 1 neither stages nor names: region 0's nine staging buffers, at anything. -/
def restS (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f))

/-- Region 1's invariant before position `n`: before the first point what the launch hands the kernel (every
    scoped buffer at anything, the generator register); afterwards the same with the scratch at the partial sum
    the point before left. -/
def PhiS (c : Dev nD) : (n : ℕ) → n ≤ cfg1.N → sProp 𝕄
  | 0, _ => Pipeline.ΦA spec1 c
  | n + 1, hn => iprop(restS (F := F) c ∗ owns (c : Thread nD τ) scM fullShare (acc V c n hn) ∗ (∃ r, prngReg c r))

/-- Region 1's proof data: every input's buffer keeps its block; the output's buffer, at the points that store it
    (`k = 15`), holds the finished partial sum plus the bias row. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc V c t.val t.isLt) (iblk1 V c 2 t)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay3 (acc V c t.val t.isLt) (iblk1 V c 2 t) := by dsimp only [dat1]

end Cert.Kernel.Hand

end
-- ==== Proof.KB.Run.lean ====
/-
  The run of the word-level kernel's @main, at any float instance: three stretches of host reshapes around two
  kernel regions. The buffers' contents are followed through @main as a fold `W0 … W5`: a host stretch applies
  its operations, a region replaces its windows' arrays by what its write-backs leave (`Dat.arrAt … N`) and
  touches nothing else. Every weakly fair execution terminates with every unscoped buffer at `W5`; no step of
  the fold writes an argument, so each argument ends as launched.
-/
import proofs.«111724_j9663676416607_2_alg».proof.Proof.KB.Data
import proofs.«111724_j9663676416607_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main -/

/-- At launch. -/
abbrev W0 (c : Dev nD) : Valuation τ sig (Elt F) := fun b => m (c, b)
/-- After the first reshape (the row S as a 1×64 matrix): region 0's entry. -/
abbrev W1 (c : Dev nD) : Valuation τ sig (Elt F) := StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the two reshapes (X as 8192×4096, the bias as a 1×4096 row): region 1's entry. -/
abbrev W3 (c : Dev nD) : Valuation τ sig (Elt F) := StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the last reshape (the product back as 8×1024×4096): the end of @main. -/
abbrev W5 (c : Dev nD) : Valuation τ sig (Elt F) := StableHlo.after hostOps2 (W4 m c)

/-! ## What each step leaves alone -/

theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h
theorem W5_of (c : Dev nD) (r : Ref sig .tc) (h : r ∉ hostOps2_W) : W5 m c r = W4 m c r :=
  StableHlo.after_of_writes_sub hostOps2 _ hostOps2_writes h

/-- An input array of region 0 leaves the region as it entered. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))

/-! ## The arguments end as launched -/

theorem W5_main_arg0 (c : Dev nD) : W5 m c (Proc.devRef .tc main_arg0) = m ((c : Thread nD τ).loc main_arg0) :=
  (W5_of m c main_arg0 (by decide)).trans <| (W4_of_ne m c main_arg0 (by decide)).trans <| (W3_of m c main_arg0 (by decide)).trans <|
    (W2_of_ne m c main_arg0 (by decide)).trans <| (W1_of m c main_arg0 (by decide)).trans rfl
theorem W5_main_arg1 (c : Dev nD) : W5 m c (Proc.devRef .tc main_arg1) = m ((c : Thread nD τ).loc main_arg1) :=
  (W5_of m c main_arg1 (by decide)).trans <| (W4_of_ne m c main_arg1 (by decide)).trans <| (W3_of m c main_arg1 (by decide)).trans <|
    (W2_in m c 0 rfl).trans <| (W1_of m c main_arg1 (by decide)).trans rfl
theorem W5_main_arg2 (c : Dev nD) : W5 m c (Proc.devRef .tc main_arg2) = m ((c : Thread nD τ).loc main_arg2) :=
  (W5_of m c main_arg2 (by decide)).trans <| (W4_of_ne m c main_arg2 (by decide)).trans <| (W3_of m c main_arg2 (by decide)).trans <|
    (W2_in m c 1 rfl).trans <| (W1_of m c main_arg2 (by decide)).trans rfl
theorem W5_main_arg3 (c : Dev nD) : W5 m c (Proc.devRef .tc main_arg3) = m ((c : Thread nD τ).loc main_arg3) :=
  (W5_of m c main_arg3 (by decide)).trans <| (W4_of_ne m c main_arg3 (by decide)).trans <| (W3_of m c main_arg3 (by decide)).trans <|
    (W2_of_ne m c main_arg3 (by decide)).trans <| (W1_of m c main_arg3 (by decide)).trans rfl
theorem W5_main_arg4 (c : Dev nD) : W5 m c (Proc.devRef .tc main_arg4) = m ((c : Thread nD τ).loc main_arg4) :=
  (W5_of m c main_arg4 (by decide)).trans <| (W4_of_ne m c main_arg4 (by decide)).trans <| (W3_of m c main_arg4 (by decide)).trans <|
    (W2_in m c 3 rfl).trans <| (W1_of m c main_arg4 (by decide)).trans rfl
theorem W5_main_arg5 (c : Dev nD) : W5 m c (Proc.devRef .tc main_arg5) = m ((c : Thread nD τ).loc main_arg5) :=
  (W5_of m c main_arg5 (by decide)).trans <| (W4_of_ne m c main_arg5 (by decide)).trans <| (W3_of m c main_arg5 (by decide)).trans <|
    (W2_of_ne m c main_arg5 (by decide)).trans <| (W1_of m c main_arg5 (by decide)).trans rfl

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

/-! ## The regions as segments -/

/-- Region 0's body obligation at its entry contents. -/
abbrev Hb0 : Prop := ∀ c : Dev nD, BodyObligation (dat0 (F := F) (V1 m) c) (defs₀ (F := F)) Variants.none () Set.univ
/-- Region 1's body obligation at its entry contents, -/
abbrev Hb1 : Prop := ∀ c : Dev nD, BodyObligation (dat1 (F := F) (V3 m) c) (defs₀ (F := F)) Variants.none () Set.univ
/-- what the launch hands region 1 is its invariant before the first point, -/
abbrev Hi1 : Prop := ∀ c : Dev nD, (Pipeline.ΦA spec1 c : sProp 𝕄) ⊢ (dat1 (F := F) (V3 m) c).Φ 0
/-- and the invariant after the last point gives it back. -/
abbrev Ho1 : Prop := ∀ c : Dev nD, (dat1 (F := F) (V3 m) c).Φ (Fin.last cfg1.N) ⊢ (Pipeline.ΦA spec1 c : sProp 𝕄)

set_option backward.isDefEq.respectTransparency.types false in
/-- Region 0 over the thread state: entered with every unscoped buffer at `W1`, left at `W2`. -/
def reg0 (hb0 : Hb0 m) : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (hb0 c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left at `W4`. The scratch's
    partial sums live inside the pipeline's invariant and are forgotten at the exit. -/
def reg1 (hb1 : Hb1 m) (hi1 : Hi1 m) (ho1 : Ho1 m) : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (hb1 c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hi1 c)
    unfold Pipeline.ΦA
    iintro ⟨Hp, -, Hr⟩
    isplitl [Hr]; · iexact Hr
    iexact Hp
  hout c := by
    rw [Pipeline.ownSems0_none]
    refine BIBase.Entails.trans (ho1 c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs (hb0 : Hb0 m) (hb1 : Hb1 m) (hi1 : Hi1 m) (ho1 : Ho1 m) : List (Pipeline.Seg (pcfgs (F := F)) adm (pdats m) () defs₀ 𝒱₀ L lv) :=
  [ .host (hseg hostOps0 hostOps0_sub hostOps0_fresh (W0 m)),
    .region (reg0 m hb0),
    .host (hseg hostOps1 hostOps1_sub hostOps1_fresh (W2 m)),
    .region (reg1 m hb1 hi1 ho1),
    .host (hseg hostOps2 hostOps2_sub hostOps2_fresh (W4 m)) ]

theorem main_run (hb0 : Hb0 m) (hb1 : Hb1 m) (hi1 : Hi1 m) (ho1 : Ho1 m) (c : Dev nD) : main (F := F) c = Pipeline.Seg.run (segs m hb0 hb1 hi1 ho1) := (main_chain c).trans (by chain_rfl)

set_option backward.isDefEq.respectTransparency.types false in
/-- Every weakly fair execution of @main terminates, nothing faulting, with every unscoped buffer at the fold's
    last contents `W5`. -/
theorem run_all (hb0 : Hb0 m) (hb1 : Hb1 m) (hi1 : Hi1 m) (ho1 : Ho1 m) : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m hb0 hb1 hi1 ho1)
    (fun c Q => by rw [main_run m hb0 hb1 hi1 ho1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c)
        ⊢ iprop(Tₙ m c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- The frame: each argument array ends as launched. -/
theorem frame_all (hb0 : Hb0 m) (hb1 : Hb1 m) (hi1 : Hi1 m) (ho1 : Ho1 m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c)⟩) (run_all m ρ hb0 hb1 hi1 ho1)

end Cert.Kernel.Hand

end
-- ==== Proof.KB.MergeBody.lean ====
/-
  Region 0's body: at every grid point the merge kernel, run on the five windows' current staging buffers,
  reads the four input blocks, leaves them as they were, and leaves in the output's buffer the block of
  W + (U · diag S) · V  computed from them.
-/
import proofs.«111724_j9663676416607_2_alg».proof.Proof.KB.Data
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-! ## Each input's current staging buffer holds its block -/

/-- Input window 0's current staging buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- Input window 1's, fetched there or not (its block index moves every fourth point). -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- Input window 2's (fetched at the first point only). -/
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-- Input window 3's. -/
theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)

/-! ## Whole-buffer accesses -/

/-- The zero offsets of a whole-buffer access, as the constant function. -/
private theorem zeros2 : (![0, 0] : Fin 2 → ℕ) = fun _ => 0 := by
  funext a; fin_cases a <;> rfl

/-- A load of the whole buffer reads its contents. -/
private theorem readAt_whole {Val : EltTy → Type} {sg : RefSig} {κ : Kind} {sp : Space} {S : Shape} {e : EltTy}
    (v : View sg κ sp S e) (f : v.ty.Contents Val) (off : Fin S.rank → ℕ) (h : off = fun _ => 0)
    (inb : ∀ a, off a + S.size a ≤ S.size a) :
    v.readAt Val (Rect.unit off S.size inb).toLoadRect f = v.read Val f := by
  subst h
  rw [View.readAt_eq_ld]
  exact View.ld_unit_zero rfl inb _

/-- One store of the whole buffer, over any contents, reads back as its payload. -/
private theorem read_write_whole {Val : EltTy → Type} [∀ e, Nonempty (Val e)] {sg : RefSig} {κ : Kind} {sp : Space} {S : Shape}
    {e : EltTy} (v : View sg κ sp S e) (f : v.ty.Contents Val) (off : Fin S.rank → ℕ) (h : off = fun _ => 0)
    (inb : ∀ a, off a + S.size a ≤ S.size a) (w : (Rect.unit off S.size inb).shape.Idx → Val e) :
    v.read Val (v.writes Val f [(⟨Rect.unit off S.size inb, w⟩ : View.Piece Val S e)]) = w := by
  subst h
  rw [View.read_writes_eq_canon v f _ (fun y => ⟨_, List.mem_singleton_self _, View.mem_set_unit_zero rfl inb y⟩),
    View.canon_unit_zero rfl inb w]

/-! ## The body's triple -/

set_option maxHeartbeats 1000000 in
/-- The merge kernel on whole staging memrefs, the four inputs' at read contents `x0 … x3` and the output's at
    anything, runs to the continuation holding the inputs' as they were and the output's at the block computed
    from them: its one store is the whole buffer, so what the buffer read before does not matter. -/
theorem sound_kernel0 (c : Dev nD) (E : Set ℕ) (i : grid0.Coords)
    (arg2 : Memref sig .tc .vmem S1024x1024 .f32) (harg2 : arg2.IsWhole)
    (arg3 : Memref sig .tc .vmem S1024x64 .f32) (harg3 : arg3.IsWhole)
    (arg4 : Memref sig .tc .vmem S1x64 .f32) (harg4 : arg4.IsWhole)
    (arg5 : Memref sig .tc .vmem S64x1024 .f32) (harg5 : arg5.IsWhole)
    (arg6 : Memref sig .tc .vmem S1024x1024 .bf16) (harg6 : arg6.IsWhole)
    (x0 : Vec F S1024x1024 .f32) (x1 : Vec F S1024x64 .f32) (x2 : Vec F S1x64 .f32) (x3 : Vec F S64x1024 .f32)
    (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k0_pay1 x1 x2 x3 x0)) -∗ K ⟨⟩))
      ⊢ wp frame (wpE (defs₀ (F := F)) Variants.none c none) E
          (cc0__merge_kernel i arg2 harg2 arg3 harg3 arg4 harg4 arg5 harg5 arg6 harg6) K := by
  simp only [cc0__merge_kernel_eq_skeleton]; unfold cc0__merge_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (read_write_whole arg6.view f4 _ zeros2 _ _).trans ?_
  rw [readAt_whole arg3.view f1 _ zeros2, readAt_whole arg4.view f2 _ zeros2,
    readAt_whole arg5.view f3 _ zeros2, readAt_whole arg2.view f0 _ zeros2]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the kernel's triple applies; the invariant
    and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- Region 0's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.MatmulRuns.lean ====
/-
  The matmul kernel's body, run once for each way its two conditionals can go.

  Region 1's body zeroes the scratch when a run over k begins (k = 0), adds the product of the point's two blocks
  to the scratch at every point, and when the run ends (k = 15) stores the scratch plus the bias row into the
  output window. Every load and store is of a whole buffer, so each case's triple is stated with the explicit
  contents the body leaves: the scratch at the product added to what it held (to zero, where the run begins), the
  output window at the finished sum plus the bias where the run ends and untouched elsewhere, the inputs as found.
-/
import proofs.«111724_j9663676416607_2_alg».proof.Proof.KB.Data
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two conditionals -/

/-- The all-zero offsets of a rank-two rectangle, however spelt. -/
private theorem hz : (![0, 0] : Fin 2 → Nat) = fun _ => 0 := funext fun a => by fin_cases a <;> rfl

/-- The first conditional's test (a run over k begins: k = 0), from the grid coordinates. -/
abbrev cond1 (i : grid1.Coords) : Prop :=
  (Scalar.cmpi .ne (Scalar.extui (Scalar.cmpi .eq (BitVec.ofNat 32 (i 2).val) 0#32)) 0#32) = 1#1
/-- It holds at the points ≡ 0 (mod 16): decided over the grid. -/
theorem hcond1 : ∀ t : Fin cfg1.N, cond1 (grid1.coords t) ↔ t.val % 16 = 0 :=
  (by decide +kernel : ∀ t : Fin grid1.N, cond1 (grid1.coords t) ↔ t.val % 16 = 0)
/-- The second conditional's test (a run over k ends: k = 15). -/
abbrev cond2 (i : grid1.Coords) : Prop := k1_cond2 i = 1#1
/-- It holds at the points ≡ 15 (mod 16): decided over the grid. -/
theorem hcond2 : ∀ t : Fin cfg1.N, cond2 (grid1.coords t) ↔ t.val % 16 = 15 :=
  (by decide +kernel : ∀ t : Fin grid1.N, cond2 (grid1.coords t) ↔ t.val % 16 = 15)

/-! ## Whole-buffer loads and stores -/

/-- What a buffer reads after a list of whole-buffer stores: the last store's payload (the list is last first). -/
private theorem read_store_last {κ : Kind} {sp : Space} (v : View sig κ sp S1024x2048 .f32) (f : v.ty.Contents (Elt F))
    (w : Vec F S1024x2048 .f32) (L : List (View.Piece (Elt F) S1024x2048 .f32)) :
    v.read (Elt F) (v.writes (Elt F) f
      (⟨Rect.unit (s := S1024x2048) ![0, 0] S1024x2048.size inb_S1024x2048_S1024x2048_0_0, w⟩ :: L)) = w := by
  rw [View.read_writes_eq_canon _ _ _ (fun y => ⟨_, List.Mem.head _, View.mem_set_unit_zero hz inb_S1024x2048_S1024x2048_0_0 y⟩),
    View.canon_cons_unit_zero hz]

/-- A whole-buffer load after one whole-buffer store reads the stored payload. -/
private theorem readCov_store {κ : Kind} {sp : Space} (v : View sig κ sp S1024x2048 .f32) (w : Vec F S1024x2048 .f32) :
    v.readCov [(⟨Rect.unit (s := S1024x2048) ![0, 0] S1024x2048.size inb_S1024x2048_S1024x2048_0_0, w⟩ : View.Piece (Elt F) S1024x2048 .f32)]
      (Rect.unit (s := S1024x2048) ![0, 0] S1024x2048.size inb_S1024x2048_S1024x2048_0_0).toLoadRect = w :=
  View.readCov_unit_zero v hz _ w

/-- A whole-buffer load reads the buffer's contents (the three input shapes and the accumulator's). -/
private theorem readAt_whole0 {κ : Kind} {sp : Space} (v : View sig κ sp S1024x256 .f32) (f : v.ty.Contents (Elt F)) :
    v.readAt (Elt F) (Rect.unit (s := S1024x256) ![0, 0] S1024x256.size inb_S1024x256_S1024x256_0_0).toLoadRect f = v.read (Elt F) f :=
  View.ld_unit_zero hz _ _
private theorem readAt_whole1 {κ : Kind} {sp : Space} (v : View sig κ sp S2048x256 .bf16) (f : v.ty.Contents (Elt F)) :
    v.readAt (Elt F) (Rect.unit (s := S2048x256) ![0, 0] S2048x256.size inb_S2048x256_S2048x256_0_0).toLoadRect f = v.read (Elt F) f :=
  View.ld_unit_zero hz _ _
private theorem readAt_whole2 {κ : Kind} {sp : Space} (v : View sig κ sp S1x2048 .f32) (f : v.ty.Contents (Elt F)) :
    v.readAt (Elt F) (Rect.unit (s := S1x2048) ![0, 0] S1x2048.size inb_S1x2048_S1x2048_0_0).toLoadRect f = v.read (Elt F) f :=
  View.ld_unit_zero hz _ _
private theorem readAt_whole3 {κ : Kind} {sp : Space} (v : View sig κ sp S1024x2048 .f32) (f : v.ty.Contents (Elt F)) :
    v.readAt (Elt F) (Rect.unit (s := S1024x2048) ![0, 0] S1024x2048.size inb_S1024x2048_S1024x2048_0_0).toLoadRect f = v.read (Elt F) f :=
  View.ld_unit_zero hz _ _

/-! ## The body's triple, case by case -/

set_option maxHeartbeats 1000000 in
/-- A run over k begins and does not end (k = 0): the scratch, whatever it held, is zeroed and then holds the
    product of the two blocks added to zero; the output window is not stored. -/
theorem run_A (c : Dev nD) (E : Set ℕ) (i : grid1.Coords)
    (arg3 : Memref sig .tc .vmem S1024x256 .f32) (harg3 : arg3.IsWhole)
    (arg4 : Memref sig .tc .vmem S2048x256 .bf16) (harg4 : arg4.IsWhole)
    (arg5 : Memref sig .tc .vmem S1x2048 .f32) (harg5 : arg5.IsWhole)
    (arg6 : Memref sig .tc .vmem S1024x2048 .f32) (harg6 : arg6.IsWhole)
    (arg7 : Memref sig .tc .vmem S1024x2048 .f32) (harg7 : arg7.IsWhole)
    (hc1 : cond1 i) (hc2 : ¬cond2 i)
    (x0 : Vec F S1024x256 .f32) (x1 : Vec F S2048x256 .bf16) (x2 : Vec F S1x2048 .f32)
    (xi : Vec F S1024x2048 .f32) (xs : Vec F S1024x2048 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare xi
        ∗ owns (c : Thread nD τ) arg7 fullShare xs
        ∗ (iprop(owns (c : Thread nD τ) arg3 fullShare x0 ∗ owns (c : Thread nD τ) arg4 fullShare x1
            ∗ owns (c : Thread nD τ) arg5 fullShare x2 ∗ owns (c : Thread nD τ) arg6 fullShare (xi)
            ∗ owns (c : Thread nD τ) arg7 fullShare (k1_pay2 x0 x1 (k1_pay1 (F := F)))) -∗ K ⟨⟩))
      ⊢ wp frame (wpE (defs₀ (F := F)) Variants.none c none) E
          (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_run_names
  rw [read_store_last, readAt_whole0, readAt_whole1, readCov_store]

set_option maxHeartbeats 1000000 in
/-- Inside a run (0 < k < 15): the scratch holds the product added to what it held; the output window is not
    stored. -/
theorem run_B (c : Dev nD) (E : Set ℕ) (i : grid1.Coords)
    (arg3 : Memref sig .tc .vmem S1024x256 .f32) (harg3 : arg3.IsWhole)
    (arg4 : Memref sig .tc .vmem S2048x256 .bf16) (harg4 : arg4.IsWhole)
    (arg5 : Memref sig .tc .vmem S1x2048 .f32) (harg5 : arg5.IsWhole)
    (arg6 : Memref sig .tc .vmem S1024x2048 .f32) (harg6 : arg6.IsWhole)
    (arg7 : Memref sig .tc .vmem S1024x2048 .f32) (harg7 : arg7.IsWhole)
    (hc1 : ¬cond1 i) (hc2 : ¬cond2 i)
    (x0 : Vec F S1024x256 .f32) (x1 : Vec F S2048x256 .bf16) (x2 : Vec F S1x2048 .f32)
    (xi : Vec F S1024x2048 .f32) (xs : Vec F S1024x2048 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare xi
        ∗ owns (c : Thread nD τ) arg7 fullShare xs
        ∗ (iprop(owns (c : Thread nD τ) arg3 fullShare x0 ∗ owns (c : Thread nD τ) arg4 fullShare x1
            ∗ owns (c : Thread nD τ) arg5 fullShare x2 ∗ owns (c : Thread nD τ) arg6 fullShare (xi)
            ∗ owns (c : Thread nD τ) arg7 fullShare (k1_pay2 x0 x1 xs)) -∗ K ⟨⟩))
      ⊢ wp frame (wpE (defs₀ (F := F)) Variants.none c none) E
          (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  rw [read_store_last, readAt_whole0, readAt_whole1, readAt_whole3]

set_option maxHeartbeats 1000000 in
/-- A run over k ends (k = 15): the scratch holds the product added to what it held, and the output window that
    sum plus the bias row broadcast along the rows. -/
theorem run_C (c : Dev nD) (E : Set ℕ) (i : grid1.Coords)
    (arg3 : Memref sig .tc .vmem S1024x256 .f32) (harg3 : arg3.IsWhole)
    (arg4 : Memref sig .tc .vmem S2048x256 .bf16) (harg4 : arg4.IsWhole)
    (arg5 : Memref sig .tc .vmem S1x2048 .f32) (harg5 : arg5.IsWhole)
    (arg6 : Memref sig .tc .vmem S1024x2048 .f32) (harg6 : arg6.IsWhole)
    (arg7 : Memref sig .tc .vmem S1024x2048 .f32) (harg7 : arg7.IsWhole)
    (hc1 : ¬cond1 i) (hc2 : cond2 i)
    (x0 : Vec F S1024x256 .f32) (x1 : Vec F S2048x256 .bf16) (x2 : Vec F S1x2048 .f32)
    (xi : Vec F S1024x2048 .f32) (xs : Vec F S1024x2048 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare xi
        ∗ owns (c : Thread nD τ) arg7 fullShare xs
        ∗ (iprop(owns (c : Thread nD τ) arg3 fullShare x0 ∗ owns (c : Thread nD τ) arg4 fullShare x1
            ∗ owns (c : Thread nD τ) arg5 fullShare x2 ∗ owns (c : Thread nD τ) arg6 fullShare (k1_pay3 (k1_pay2 x0 x1 xs) x2)
            ∗ owns (c : Thread nD τ) arg7 fullShare (k1_pay2 x0 x1 xs)) -∗ K ⟨⟩))
      ⊢ wp frame (wpE (defs₀ (F := F)) Variants.none c none) E
          (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    rw [read_store_last, readAt_whole2, readCov_store, readAt_whole0, readAt_whole1, readAt_whole3]
  iexists _; isplitr
  swap; · iexact HS
  ipureintro
  sl_unfold_run_names
  rw [read_store_last, readAt_whole0, readAt_whole1, readAt_whole3]

end Cert.Kernel.Hand

end
-- ==== Proof.KB.MatmulBody.lean ====
/-
  Region 1's body obligation: the matmul kernel at every point of its grid.

  The grid is (i, j, k) with k innermost, so the position t of a point has k = t mod 16. The scratch carries the
  partial sum of  X · Wᵀ  over the first k + 1 column blocks from point to point: the invariant before point t + 1
  holds it at `acc t`. At a point with k = 0 the body zeroes the scratch first, so `acc t` is the point's product
  added to zero whatever the scratch held; at the other points it is the product added to `acc (t - 1)`. At k = 15
  the body stores the finished sum plus the bias row into the output window; at the other points the output window
  is idle and is handed back as it was found. Before the first point the invariant is what the region is handed,
  with the scratch at anything; after the last point the finished sum is forgotten again.
-/
import proofs.«111724_j9663676416607_2_alg».proof.Proof.KB.MatmulRuns

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Where the windows are idle -/

/-- The inputs are never idle. -/
theorem liveAt1_0 (t : Fin cfg1.N) : cfg1.idle 0 (grid1.coords t) = false := rfl
theorem liveAt1_1 (t : Fin cfg1.N) : cfg1.idle 1 (grid1.coords t) = false := rfl
theorem liveAt1_2 (t : Fin cfg1.N) : cfg1.idle 2 (grid1.coords t) = false := rfl
/-- Away from the end of a run over k the output window is idle: the body stores nothing into it, -/
theorem idleAt1_3 : ∀ t : Fin cfg1.N, ¬cond2 (grid1.coords t) → cfg1.idle 3 (grid1.coords t) = true := by decide +kernel
/-- and the pipeline does not write its block back. -/
theorem noFlush1_3 : ∀ t : Fin cfg1.N, ¬cond2 (grid1.coords t) → (cfg1.win 3).flush t = false := by decide +kernel
/-- At the end of a run the output window is live. -/
theorem liveAt1_3 : ∀ t : Fin cfg1.N, cond2 (grid1.coords t) → cfg1.idle 3 (grid1.coords t) = false := by decide +kernel

/-! ## The staging memrefs the body is called with -/

abbrev ms1_0 (t : Fin cfg1.N) : Memref sig .tc .vmem S1024x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .f32 := win1_3.stage (cfg1.slots t 3)
abbrev hs1_3 (t : Fin cfg1.N) : (ms1_3 t).IsWhole := hstage1_3 ((cfg1.slots t 3).cast nbuf1_3)

/-! ## Each input's current staging buffer holds its block -/

/-- Input window 0's current staging buffer holds its block at every point. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
/-- Input window 1's. -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
/-- Input window 2's, fetched there or not (its block index moves when a run over k begins). -/
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

/-! ## The carried partial sum, point by point -/

/-- Where a run over k begins the partial sum is the point's product added to zero. -/
theorem acc_zero_mod (c : Dev nD) (t : Fin cfg1.N) (h : t.val % 16 = 0) :
    acc V c t.val t.isLt = k1_pay2 (iblk1 V c 0 t) (iblk1 V c 1 t) (k1_pay1 (F := F)) := by
  obtain ⟨n, hn⟩ := t
  cases n with
  | zero => rfl
  | succ n =>
    show k1_pay2 _ _ (if (n + 1) % 16 = 0 then (k1_pay1 (F := F)) else acc V c n _) = _
    rw [if_pos h]

/-- Elsewhere it is the point's product added to what the point before left. -/
theorem acc_pos_mod (c : Dev nD) (t : Fin cfg1.N) (h : t.val % 16 ≠ 0) :
    acc V c t.val t.isLt = k1_pay2 (iblk1 V c 0 t) (iblk1 V c 1 t)
      (acc V c (t.val - 1) (Nat.lt_of_le_of_lt (Nat.sub_le _ _) t.isLt)) := by
  obtain ⟨n, hn⟩ := t
  cases n with
  | zero => exact absurd (Nat.zero_mod _) h
  | succ n =>
    show k1_pay2 _ _ (if (n + 1) % 16 = 0 then (k1_pay1 (F := F)) else acc V c n _) = _
    rw [if_neg h]
    rfl

/-! ## The invariant -/

/-- What the launch hands the region names the scratch among the scoped buffers at anything: -/
theorem PhiA1_elim (c : Dev nD) :
    (Pipeline.ΦA spec1 c : sProp 𝕄)
      ⊢ iprop(restS (F := F) c ∗ (∃ d, owns (c : Thread nD τ) scM fullShare d) ∗ ∃ r, prngReg c r) := by
  unfold Pipeline.ΦA; rw [scopedRest1_eq]; unfold restS; simp only [scM, owns_whole]
  iintro ⟨⟨A0, A1, A2, A3, A4, A5, A6, A7, A8, AS⟩, Hg⟩
  isplitl [A0 A1 A2 A3 A4 A5 A6 A7 A8]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    iexact A8
  isplitl [AS]; · iexact AS
  iexact Hg

/-- and takes it back so. -/
theorem PhiA1_intro (c : Dev nD) :
    iprop(restS (F := F) c ∗ (∃ d, owns (c : Thread nD τ) scM fullShare d) ∗ ∃ r, prngReg c r)
      ⊢ (Pipeline.ΦA spec1 c : sProp 𝕄) := by
  unfold Pipeline.ΦA; rw [scopedRest1_eq]; unfold restS; simp only [scM, owns_whole]
  iintro ⟨⟨A0, A1, A2, A3, A4, A5, A6, A7, A8⟩, AS, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    iexact AS
  iexact Hg

/-- Before any point the invariant holds the scratch at something. -/
theorem PhiS_some (c : Dev nD) (n : ℕ) (h : n ≤ cfg1.N) :
    PhiS V c n h ⊢ iprop(restS (F := F) c ∗ (∃ d, owns (c : Thread nD τ) scM fullShare d) ∗ ∃ r, prngReg c r) := by
  cases n with
  | zero => exact PhiA1_elim c
  | succ n =>
    show iprop(restS (F := F) c ∗ owns (c : Thread nD τ) scM fullShare (acc V c n h) ∗ (∃ r, prngReg c r)) ⊢ _
    iintro ⟨HR, HS, Hg⟩
    isplitl [HR]; · iexact HR
    isplitl [HS]; · iexists _; iexact HS
    iexact Hg

/-- Before a point that is not the first it holds the scratch at the partial sum the point before left. -/
theorem PhiS_pos (c : Dev nD) (n : ℕ) (h : n ≤ cfg1.N) (hz : n ≠ 0) :
    PhiS V c n h = iprop(restS (F := F) c ∗ owns (c : Thread nD τ) scM fullShare (acc V c (n - 1) (by omega)) ∗ (∃ r, prngReg c r)) := by
  cases n with
  | zero => exact absurd rfl hz
  | succ n => rfl

/-! ## The body obligation, at a generic point -/

/-- What the body is called with at point `t`: the invariant, what the core owes, and each window's current
    staging buffer at what it then holds, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t
    ∗ (dat1 V c).leavesExact 2 t ∗ (dat1 V c).leavesExact 3 t)

set_option maxHeartbeats 4000000 in
/-- The body at any point. The inputs' buffers hold their blocks; the point's position in its run over k says which
    of the three cases it is in. Where a run begins the scratch arrives at anything (the launch's, or the run
    before's finished sum) and leaves at the product added to zero; elsewhere it arrives at the partial sum the point
    before left and leaves at the product added to it; where a run ends the output window leaves at that sum plus the
    bias row, and elsewhere it is handed back as found. What the core owes passes through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ
      = iprop(restS (F := F) c ∗ owns (c : Thread nD τ) scM fullShare (acc V c t.val t.isLt) ∗ (∃ r, prngReg c r)) from rfl]
  rw [show (dat1 V c).leavesExact 0 t = owns (c : Thread nD τ) (ms1_0 t) fullShare (iblk1 V c 0 t) from by
        unfold Dat.leavesExact; rw [liveAt1_0 t, after1_0],
    show (dat1 V c).leavesExact 1 t = owns (c : Thread nD τ) (ms1_1 t) fullShare (iblk1 V c 1 t) from by
        unfold Dat.leavesExact; rw [liveAt1_1 t, after1_1],
    show (dat1 V c).leavesExact 2 t = owns (c : Thread nD τ) (ms1_2 t) fullShare (iblk1 V c 2 t) from by
        unfold Dat.leavesExact; rw [liveAt1_2 t, after1_2]]
  by_cases h0 : t.val % 16 = 0
  · have hc1 : cond1 (grid1.coords t) := (hcond1 t).mpr h0
    have hc2 : ¬cond2 (grid1.coords t) := fun h => by have := (hcond2 t).mp h; omega
    have hΦ : (dat1 V c).Φ t.castSucc
        ⊢ iprop(restS (F := F) c ∗ (∃ d, owns (c : Thread nD τ) scM fullShare d) ∗ ∃ r, prngReg c r) :=
      PhiS_some V c _ _
    rw [Dat.leavesExact_idle (dat1 V c) 3 t (idleAt1_3 t hc2) (noFlush1_3 t hc2), acc_zero_mod V c t h0]
    iintro ⟨HΦ, Ho, ⟨%d0, H0⟩, ⟨%d1, H1⟩, ⟨%d2, H2⟩, ⟨%d3, H3⟩⟩
    ihave HΦ' := hΦ $$ HΦ
    icases HΦ' with ⟨HR, ⟨%ds, HS⟩, Hg⟩
    iapply (run_A c Set.univ (grid1.coords t) _ _ _ _ _ _ _ _ _ _ hc1 hc2 (iblk1 V c 0 t) (iblk1 V c 1 t)
      (iblk1 V c 2 t) ((dat1 V c).before 3 t d3) ds _)
    isplitl [H0]; · iexact H0
    isplitl [H1]; · iexact H1
    isplitl [H2]; · iexact H2
    isplitl [H3]; · iexact H3
    isplitl [HS]; · iexact HS
    iintro ⟨H0, H1, H2, H3, HS⟩
    isplitl [HR HS Hg]
    · isplitl [HR]; · iexact HR
      isplitl [HS]; · iexact HS
      iexact Hg
    isplitl [Ho]; · iexact Ho
    isplitl [H0]; · iexact H0
    isplitl [H1]; · iexact H1
    isplitl [H2]; · iexact H2
    iexists d3; iexact H3
  · have hc1 : ¬cond1 (grid1.coords t) := fun h => h0 ((hcond1 t).mp h)
    have hne : t.val ≠ 0 := fun e => h0 (by rw [e])
    rw [acc_pos_mod V c t h0]
    rw [show (dat1 V c).Φ t.castSucc = PhiS V c t.val (Nat.le_of_lt t.isLt) from rfl, PhiS_pos V c _ _ hne]
    by_cases h15 : t.val % 16 = 15
    · have hc2 : cond2 (grid1.coords t) := (hcond2 t).mpr h15
      rw [show (dat1 V c).leavesExact 3 t = owns (c : Thread nD τ) (ms1_3 t) fullShare
            (k1_pay3 (acc V c t.val t.isLt) (iblk1 V c 2 t)) from by
          unfold Dat.leavesExact; rw [liveAt1_3 t hc2, after1_3]]
      rw [acc_pos_mod V c t h0]
      iintro ⟨⟨HR, HS, Hg⟩, Ho, ⟨%d0, H0⟩, ⟨%d1, H1⟩, ⟨%d2, H2⟩, ⟨%d3, H3⟩⟩
      iapply (run_C c Set.univ (grid1.coords t) _ _ _ _ _ _ _ _ _ _ hc1 hc2 (iblk1 V c 0 t) (iblk1 V c 1 t)
        (iblk1 V c 2 t) ((dat1 V c).before 3 t d3) _ _)
      isplitl [H0]; · iexact H0
      isplitl [H1]; · iexact H1
      isplitl [H2]; · iexact H2
      isplitl [H3]; · iexact H3
      isplitl [HS]; · iexact HS
      iintro ⟨H0, H1, H2, H3, HS⟩
      isplitl [HR HS Hg]
      · isplitl [HR]; · iexact HR
        isplitl [HS]; · iexact HS
        iexact Hg
      isplitl [Ho]; · iexact Ho
      isplitl [H0]; · iexact H0
      isplitl [H1]; · iexact H1
      isplitl [H2]; · iexact H2
      iexact H3
    · have hc2 : ¬cond2 (grid1.coords t) := fun h => h15 ((hcond2 t).mp h)
      rw [Dat.leavesExact_idle (dat1 V c) 3 t (idleAt1_3 t hc2) (noFlush1_3 t hc2)]
      iintro ⟨⟨HR, HS, Hg⟩, Ho, ⟨%d0, H0⟩, ⟨%d1, H1⟩, ⟨%d2, H2⟩, ⟨%d3, H3⟩⟩
      iapply (run_B c Set.univ (grid1.coords t) _ _ _ _ _ _ _ _ _ _ hc1 hc2 (iblk1 V c 0 t) (iblk1 V c 1 t)
        (iblk1 V c 2 t) ((dat1 V c).before 3 t d3) _ _)
      isplitl [H0]; · iexact H0
      isplitl [H1]; · iexact H1
      isplitl [H2]; · iexact H2
      isplitl [H3]; · iexact H3
      isplitl [HS]; · iexact HS
      iintro ⟨H0, H1, H2, H3, HS⟩
      isplitl [HR HS Hg]
      · isplitl [HR]; · iexact HR
        isplitl [HS]; · iexact HS
        iexact Hg
      isplitl [Ho]; · iexact Ho
      isplitl [H0]; · iexact H0
      isplitl [H1]; · iexact H1
      isplitl [H2]; · iexact H2
      iexists d3; iexact H3

/-- The library's body obligation, at every point. -/
theorem body_obligation1 (c : Dev nD) :
    BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 (F := F) V c).Φ 0 := by
  show (Pipeline.ΦA spec1 c : sProp 𝕄) ⊢ Pipeline.ΦA spec1 c
  exact Idealize.SL.BI.Entails.refl _

/-- After the last point the invariant gives it back: the scratch's finished sum is forgotten. -/
theorem hout1 (c : Dev nD) : (dat1 (F := F) V c).Φ (Fin.last cfg1.N) ⊢ (Pipeline.ΦA spec1 c : sProp 𝕄) := by
  show PhiS V c (Fin.last cfg1.N).val (Nat.le_of_lt_succ (Fin.last cfg1.N).isLt) ⊢ _
  exact (PhiS_some V c _ _).trans (PhiA1_intro c)

end Cert.Kernel.Hand

end
-- ==== Proof.KI.Data.lean ====
/-
  Region data of the idealized kernel's two pipelines, at any float instance.

  Region 0 folds the rank-64 term into the main weight: at grid point (i, j) it writes the 1024×1024 block
  (i, j) of  W + (U · diag S) · V  from block (i, j) of W, row block i of U, the one row S and column block j of V.
  Region 1 multiplies: over the grid (i, j, k) it keeps in a scratch the partial sum over the first k + 1
  column blocks (256 columns each) of  X · Wᵀ  for row block i of X and row block j of the folded weight, and
  at k = 15 adds the bias row and stores block (i, j) of the result.
  This module only NAMES those contents point by point: what each window's staging buffer holds after the body
  (`dat0`, `dat1`), the carried partial sum (`acc`) and the invariant that carries it (`PhiS`).
-/
import proofs.«111724_j9663676416607_2_alg».proof.Proof.Gen.KernelIdeal.Launch
import proofs.«111724_j9663676416607_2_alg».proof.Proof.Gen.KernelIdeal.Skeleton
import proofs.«111724_j9663676416607_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-! ## Region 0 -/

/-- Window `w`'s block at point `t` of region 0, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Region 0's proof data: every input's buffer keeps its block; the output's buffer holds the block of
    W + (U · diag S) · V computed from the four input blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay1 (iblk0 V c 1 t) (iblk0 V c 2 t) (iblk0 V c 3 t) (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = k0_pay1 (iblk0 V c 1 t) (iblk0 V c 2 t) (iblk0 V c 3 t) (iblk0 V c 0 t) := by dsimp only [dat0]

/-! ## Region 1 -/

/-- Window `w`'s block at point `t` of region 1, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The partial sum the scratch holds after point `n`: the product of the point's two blocks added to zero where
    a new run over `k` begins (`n ≡ 0 mod 16`), else to what the point before left. -/
def acc (c : Dev nD) : (n : ℕ) → n < cfg1.N → Vec F S1024x2048 .f32
  | 0, h => k1_pay2 (iblk1 V c 0 ⟨0, h⟩) (iblk1 V c 1 ⟨0, h⟩) (k1_pay1 (F := F))
  | n + 1, h => k1_pay2 (iblk1 V c 0 ⟨n + 1, h⟩) (iblk1 V c 1 ⟨n + 1, h⟩)
      (if (n + 1) % 16 = 0 then (k1_pay1 (F := F)) else acc c n (Nat.lt_of_succ_lt h))

/-- The scratch operand as a memref. -/
abbrev scM : Memref sig .tc .vmem S1024x2048 .f32 := Memref.whole cc1_scratch0

/-- The scoped buffers region 1 neither stages nor names: region 0's nine staging buffers, at anything. -/
def restS (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg1_1), ((c : Thread nD τ).loc cc0_stg1_1) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc0_stg4_0), ((c : Thread nD τ).loc cc0_stg4_0) ↦{fullShare} f)
    ∗ (∃ f : Buf (Elt F) ((c : Thread nD τ).loc cc0_stg4_1), ((c : Thread nD τ).loc cc0_stg4_1) ↦{fullShare} f))

/-- Region 1's invariant before position `n`: before the first point what the launch hands the kernel (every
    scoped buffer at anything, the generator register); afterwards the same with the scratch at the partial sum
    the point before left. -/
def PhiS (c : Dev nD) : (n : ℕ) → n ≤ cfg1.N → sProp 𝕄
  | 0, _ => Pipeline.ΦA spec1 c
  | n + 1, hn => iprop(restS (F := F) c ∗ owns (c : Thread nD τ) scM fullShare (acc V c n hn) ∗ (∃ r, prngReg c r))

/-- Region 1's proof data: every input's buffer keeps its block; the output's buffer, at the points that store it
    (`k = 15`), holds the finished partial sum plus the bias row. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (acc V c t.val t.isLt) (iblk1 V c 2 t)
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = k1_pay3 (acc V c t.val t.isLt) (iblk1 V c 2 t) := by dsimp only [dat1]

end Cert.KernelIdeal.Hand

end
-- ==== Proof.KI.Run.lean ====
/-
  The run of the idealized kernel's @main, at any float instance: three stretches of host reshapes around two
  kernel regions. The buffers' contents are followed through @main as a fold `W0 … W5`: a host stretch applies
  its operations, a region replaces its windows' arrays by what its write-backs leave (`Dat.arrAt … N`) and
  touches nothing else. Every weakly fair execution terminates with every unscoped buffer at `W5`; no step of
  the fold writes an argument, so each argument ends as launched.
-/
import proofs.«111724_j9663676416607_2_alg».proof.Proof.KI.Data
import proofs.«111724_j9663676416607_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary of @main -/

/-- At launch. -/
abbrev W0 (c : Dev nD) : Valuation τ sig (Elt F) := fun b => m (c, b)
/-- After the first reshape (the row S as a 1×64 matrix): region 0's entry. -/
abbrev W1 (c : Dev nD) : Valuation τ sig (Elt F) := StableHlo.after hostOps0 (W0 m c)
abbrev V1 : (c : Dev nD) → (b : Ref sig .tc) → Buf (Elt F) ((c : Thread nD τ).loc b) := fun c b => W1 m c b
/-- At region 0's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the two reshapes (X as 8192×4096, the bias as a 1×4096 row): region 1's entry. -/
abbrev W3 (c : Dev nD) : Valuation τ sig (Elt F) := StableHlo.after hostOps1 (W2 m c)
abbrev V3 : (c : Dev nD) → (b : Ref sig .tc) → Buf (Elt F) ((c : Thread nD τ).loc b) := fun c b => W3 m c b
/-- At region 1's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the last reshape (the product back as 8×1024×4096): the end of @main. -/
abbrev W5 (c : Dev nD) : Valuation τ sig (Elt F) := StableHlo.after hostOps2 (W4 m c)

/-! ## What each step leaves alone -/

theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h
theorem W5_of (c : Dev nD) (r : Ref sig .tc) (h : r ∉ hostOps2_W) : W5 m c r = W4 m c r :=
  StableHlo.after_of_writes_sub hostOps2 _ hostOps2_writes h

/-- An input array of region 0 leaves the region as it entered. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))

/-! ## The arguments end as launched -/

theorem W5_main_arg0 (c : Dev nD) : W5 m c (Proc.devRef .tc main_arg0) = m ((c : Thread nD τ).loc main_arg0) :=
  (W5_of m c main_arg0 (by decide)).trans <| (W4_of_ne m c main_arg0 (by decide)).trans <| (W3_of m c main_arg0 (by decide)).trans <|
    (W2_of_ne m c main_arg0 (by decide)).trans <| (W1_of m c main_arg0 (by decide)).trans rfl
theorem W5_main_arg1 (c : Dev nD) : W5 m c (Proc.devRef .tc main_arg1) = m ((c : Thread nD τ).loc main_arg1) :=
  (W5_of m c main_arg1 (by decide)).trans <| (W4_of_ne m c main_arg1 (by decide)).trans <| (W3_of m c main_arg1 (by decide)).trans <|
    (W2_in m c 0 rfl).trans <| (W1_of m c main_arg1 (by decide)).trans rfl
theorem W5_main_arg2 (c : Dev nD) : W5 m c (Proc.devRef .tc main_arg2) = m ((c : Thread nD τ).loc main_arg2) :=
  (W5_of m c main_arg2 (by decide)).trans <| (W4_of_ne m c main_arg2 (by decide)).trans <| (W3_of m c main_arg2 (by decide)).trans <|
    (W2_in m c 1 rfl).trans <| (W1_of m c main_arg2 (by decide)).trans rfl
theorem W5_main_arg3 (c : Dev nD) : W5 m c (Proc.devRef .tc main_arg3) = m ((c : Thread nD τ).loc main_arg3) :=
  (W5_of m c main_arg3 (by decide)).trans <| (W4_of_ne m c main_arg3 (by decide)).trans <| (W3_of m c main_arg3 (by decide)).trans <|
    (W2_of_ne m c main_arg3 (by decide)).trans <| (W1_of m c main_arg3 (by decide)).trans rfl
theorem W5_main_arg4 (c : Dev nD) : W5 m c (Proc.devRef .tc main_arg4) = m ((c : Thread nD τ).loc main_arg4) :=
  (W5_of m c main_arg4 (by decide)).trans <| (W4_of_ne m c main_arg4 (by decide)).trans <| (W3_of m c main_arg4 (by decide)).trans <|
    (W2_in m c 3 rfl).trans <| (W1_of m c main_arg4 (by decide)).trans rfl
theorem W5_main_arg5 (c : Dev nD) : W5 m c (Proc.devRef .tc main_arg5) = m ((c : Thread nD τ).loc main_arg5) :=
  (W5_of m c main_arg5 (by decide)).trans <| (W4_of_ne m c main_arg5 (by decide)).trans <| (W3_of m c main_arg5 (by decide)).trans <|
    (W2_of_ne m c main_arg5 (by decide)).trans <| (W1_of m c main_arg5 (by decide)).trans rfl

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W5 m c) ∗ ∃ r, prngReg c r)

/-! ## The regions as segments -/

/-- Region 0's body obligation at its entry contents. -/
abbrev Hb0 : Prop := ∀ c : Dev nD, BodyObligation (dat0 (F := F) (V1 m) c) (defs₀ (F := F)) Variants.none () Set.univ
/-- Region 1's body obligation at its entry contents, -/
abbrev Hb1 : Prop := ∀ c : Dev nD, BodyObligation (dat1 (F := F) (V3 m) c) (defs₀ (F := F)) Variants.none () Set.univ
/-- what the launch hands region 1 is its invariant before the first point, -/
abbrev Hi1 : Prop := ∀ c : Dev nD, (Pipeline.ΦA spec1 c : sProp 𝕄) ⊢ (dat1 (F := F) (V3 m) c).Φ 0
/-- and the invariant after the last point gives it back. -/
abbrev Ho1 : Prop := ∀ c : Dev nD, (dat1 (F := F) (V3 m) c).Φ (Fin.last cfg1.N) ⊢ (Pipeline.ΦA spec1 c : sProp 𝕄)

set_option backward.isDefEq.respectTransparency.types false in
/-- Region 0 over the thread state: entered with every unscoped buffer at `W1`, left at `W2`. -/
def reg0 (hb0 : Hb0 m) : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (hb0 c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W3`, left at `W4`. The scratch's
    partial sums live inside the pipeline's invariant and are forgotten at the exit. -/
def reg1 (hb1 : Hb1 m) (hi1 : Hi1 m) (ho1 : Ho1 m) : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (hb1 c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hi1 c)
    unfold Pipeline.ΦA
    iintro ⟨Hp, -, Hr⟩
    isplitl [Hr]; · iexact Hr
    iexact Hp
  hout c := by
    rw [Pipeline.ownSems0_none]
    refine BIBase.Entails.trans (ho1 c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs (hb0 : Hb0 m) (hb1 : Hb1 m) (hi1 : Hi1 m) (ho1 : Ho1 m) : List (Pipeline.Seg (pcfgs (F := F)) adm (pdats m) () defs₀ 𝒱₀ L lv) :=
  [ .host (hseg hostOps0 hostOps0_sub hostOps0_fresh (W0 m)),
    .region (reg0 m hb0),
    .host (hseg hostOps1 hostOps1_sub hostOps1_fresh (W2 m)),
    .region (reg1 m hb1 hi1 ho1),
    .host (hseg hostOps2 hostOps2_sub hostOps2_fresh (W4 m)) ]

theorem main_run (hb0 : Hb0 m) (hb1 : Hb1 m) (hi1 : Hi1 m) (ho1 : Ho1 m) (c : Dev nD) : main (F := F) c = Pipeline.Seg.run (segs m hb0 hb1 hi1 ho1) := (main_chain c).trans (by chain_rfl)

set_option backward.isDefEq.respectTransparency.types false in
/-- Every weakly fair execution of @main terminates, nothing faulting, with every unscoped buffer at the fold's
    last contents `W5`. -/
theorem run_all (hb0 : Hb0 m) (hb1 : Hb1 m) (hi1 : Hi1 m) (ho1 : Ho1 m) : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m hb0 hb1 hi1 ho1)
    (fun c Q => by rw [main_run m hb0 hb1 hi1 ho1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c)
        ⊢ iprop(Tₙ m c ∗ ∃ W, owes (c : Thread nD τ) (0 : CellTallies nD τ sig Unit) W)
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h => h)

/-- The frame: each argument array ends as launched. -/
theorem frame_all (hb0 : Hb0 m) (hb1 : Hb1 m) (hi1 : Hi1 m) (ho1 : Ho1 m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c)⟩) (run_all m ρ hb0 hb1 hi1 ho1)

end Cert.KernelIdeal.Hand

end
-- ==== Proof.KI.Host.lean ====
/-
  The host reshapes of @main read at an index: the row S as a 1×64 matrix, X as an 8192×4096 matrix (row
  1024·b + p is row p of batch b), the bias as a 1×4096 row, and the product back as 8×1024×4096.
-/
import proofs.«111724_j9663676416607_2_alg».proof.Proof.KI.Run
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.StableHlo
open Cert.KernelIdeal Cert.KernelIdeal.Gen

variable {F : FTy → Type} [FloatOps F]
variable (m : (ℓ : Loc nD τ sig) → Buf (Elt F) ℓ)

/-- The row S as region 0 finds it: entry (0, r) is S r. -/
theorem V1_v0_apply (c : Dev nD) (r : Fin 64) :
    (V1 m c main_v0 : Vec F S1x64 .f32) (ix2 (0 : Fin 1) r) = (m ((c : Thread nD τ).loc main_arg3) : Vec F S64 .f32) (ix1 r) := by
  have e : (V1 m c main_v0 : Vec F S1x64 .f32)
      = shapeCast S1x64 (m ((c : Thread nD τ).loc main_arg3) : Vec F S64 .f32) shapeCasts_S64_S1x64 := by
    dsimp only [V1, W1, hostOps0]; after_results; rfl
  rw [e]
  exact shapeCast_a_1a_apply _ _ _ _

/-- Nothing before region 1 writes X, so its reshape reads the launch contents: row 1024·b + p of the matrix is
    row p of batch b. -/
theorem V3_v2_apply (c : Dev nD) (b : Fin 8) (p : Fin 1024) (i : Fin 4096) :
    (V3 m c main_v2 : Vec F S8192x4096 .f32) (ix2 (⟨1024 * b.val + p.val, by omega⟩ : Fin 8192) i)
      = (m ((c : Thread nD τ).loc main_arg0) : Vec F S8x1024x4096 .f32) (ix3 b p i) := by
  have e : (V3 m c main_v2 : Vec F S8192x4096 .f32)
      = shapeCast S8192x4096 (W2 m c (Proc.devRef .tc main_arg0) : Vec F S8x1024x4096 .f32) shapeCasts_S8x1024x4096_S8192x4096 := by
    dsimp only [V3, W3, hostOps1]; after_results; rfl
  have hx : (W2 m c (Proc.devRef .tc main_arg0) : Vec F S8x1024x4096 .f32) = m ((c : Thread nD τ).loc main_arg0) :=
    (W2_of_ne m c main_arg0 (by decide)).trans ((W1_of m c main_arg0 (by decide)).trans rfl)
  rw [e, hx]
  refine shapeCast_apply _ _ _ (ix3 b p i) ?_
  rw [Shape.rowMajor_val_three, Shape.rowMajor_val_two]
  show (b.val * 1024 + p.val) * 4096 + i.val = (1024 * b.val + p.val) * 4096 + i.val
  omega

/-- The bias row as region 1 finds it: entry (0, o) is the bias at o. -/
theorem V3_v3_apply (c : Dev nD) (o : Fin 4096) :
    (V3 m c main_v3 : Vec F S1x4096 .f32) (ix2 (0 : Fin 1) o) = (m ((c : Thread nD τ).loc main_arg5) : Vec F S4096 .f32) (ix1 o) := by
  have e : (V3 m c main_v3 : Vec F S1x4096 .f32)
      = shapeCast S1x4096 (W2 m c (Proc.devRef .tc main_arg5) : Vec F S4096 .f32) shapeCasts_S4096_S1x4096 := by
    dsimp only [V3, W3, hostOps1]; after_results; rfl
  have hx : (W2 m c (Proc.devRef .tc main_arg5) : Vec F S4096 .f32) = m ((c : Thread nD τ).loc main_arg5) :=
    (W2_of_ne m c main_arg5 (by decide)).trans ((W1_of m c main_arg5 (by decide)).trans rfl)
  rw [e, hx]
  exact shapeCast_a_1a_apply _ _ _ _

/-- The folded weight as region 1 finds it is what region 0 left. -/
theorem V3_v1_eq (c : Dev nD) : V3 m c main_v1 = (dat0 (V1 m) c).arrAt 4 cfg0.N :=
  (W3_of m c main_v1 (by decide)).trans (W2_arr m c 4)

/-- The inputs of region 0 that no host line wrote are the launch contents. -/
theorem V1_arg1 (c : Dev nD) : V1 m c main_arg1 = m ((c : Thread nD τ).loc main_arg1) := (W1_of m c main_arg1 (by decide)).trans rfl
theorem V1_arg2 (c : Dev nD) : V1 m c main_arg2 = m ((c : Thread nD τ).loc main_arg2) := (W1_of m c main_arg2 (by decide)).trans rfl
theorem V1_arg4 (c : Dev nD) : V1 m c main_arg4 = m ((c : Thread nD τ).loc main_arg4) := (W1_of m c main_arg4 (by decide)).trans rfl

/-- The result: entry (b, p, o) is entry (1024·b + p, o) of what region 1 left. -/
theorem W5_v5_apply (c : Dev nD) (b : Fin 8) (p : Fin 1024) (o : Fin 4096) :
    (W5 m c (Proc.devRef .tc main_v5) : Vec F S8x1024x4096 .f32) (ix3 b p o)
      = ((dat1 (V3 m) c).arrAt 3 cfg1.N : Vec F S8192x4096 .f32) (ix2 (⟨1024 * b.val + p.val, by omega⟩ : Fin 8192) o) := by
  have e : (W5 m c (Proc.devRef .tc main_v5) : Vec F S8x1024x4096 .f32)
      = shapeCast S8x1024x4096 (W4 m c (Proc.devRef .tc main_v4) : Vec F S8192x4096 .f32) shapeCasts_S8192x4096_S8x1024x4096 := by
    dsimp only [W5, hostOps2]; after_results; rfl
  rw [e, show (W4 m c (Proc.devRef .tc main_v4) : Vec F S8192x4096 .f32) = (dat1 (V3 m) c).arrAt 3 cfg1.N from W4_arr m c 3]
  refine shapeCast_apply _ _ _ (ix2 (⟨1024 * b.val + p.val, by omega⟩ : Fin 8192) o) ?_
  rw [Shape.rowMajor_val_three, Shape.rowMajor_val_two]
  show (1024 * b.val + p.val) * 4096 + o.val = (b.val * 1024 + p.val) * 4096 + o.val
  omega

end Cert.KernelIdeal.Hand

end
-- ==== Proof.LibRowOps.lean ====
/-
  Two reductions of matrices read at an index, on the extended reals.

  * The sum of an `[a, b]` array along its second axis, read at entry `p`, is the sum over `k` of the array's
    entries `(p, k)`: the sum of row `p`.
  * The product of an `[m, k]` matrix with a `[k, n]` matrix, added into a zero accumulator, read at `(p, c)`, is the
    sum over `x` of the left matrix at `(p, x)` times the right matrix at `(x, c)`.  The dimension numbers enter only
    through the four facts that say which operand coordinate is the row, the column and the contracted one.
-/
import Idealize.ShloMosaic.Lib.Pipeline.Value
import Idealize.ShloMosaic.Lib.ValueIdx
import Idealize.ShloMosaic.PureOps.Ideal.Laws

noncomputable section

namespace Cert.LibRowOps

open Idealize.ShloMosaic Idealize.ShloMosaic.ValueIdx

/-- A sum along the second axis of an `[a, b]` array, read at entry `p`: the sum of row `p`. -/
theorem rowSum_apply {a b : ℕ} (src : FVec Ideal ⟨2, ![a, b]⟩ .f32)
    (h : (⟨2, ![a, b]⟩ : Shape).Reduces [(1 : Fin 2)] ⟨1, ![a]⟩) (hφ : FKind.Formats .f32)
    (hacc : (0x00000000#32 : BitVec 32) = FKind.add.neutral .f32 hφ) (p : Fin a) :
    multiReduction .add [(1 : Fin 2)] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun c => Fin.ext (by
      match c with
      | ⟨0, _⟩ => rfl
      | ⟨1, _⟩ => rfl)))

/-- A matrix product into a zero accumulator, read at `(p, c)`: the sum over the contracted coordinate `x` of the left
    operand at `(p, x)` times the right operand at `(x, c)`. -/
theorem matmul_zero_apply {m k n : ℕ} {φ₁ φ₂ : FTy}
    (d : DotDims ⟨2, ![m, k]⟩ ⟨2, ![k, n]⟩ ⟨2, ![m, n]⟩) (prec : Option ContractPrecision)
    (lhs : FVec Ideal ⟨2, ![m, k]⟩ φ₁) (rhs : FVec Ideal ⟨2, ![k, n]⟩ φ₂)
    (hr : d.contr.rank = 1) (hs : d.contr.size ⟨0, by omega⟩ = k)
    (hl0 : ∀ (j : (⟨2, ![m, n]⟩ : Shape).Idx) (q : d.contr.Idx), (d.lhsIdx j q 0).val = (j 0).val)
    (hl1 : ∀ (j : (⟨2, ![m, n]⟩ : Shape).Idx) (q : d.contr.Idx), (d.lhsIdx j q 1).val = (q ⟨0, by omega⟩).val)
    (hr0 : ∀ (j : (⟨2, ![m, n]⟩ : Shape).Idx) (q : d.contr.Idx), (d.rhsIdx j q 0).val = (q ⟨0, by omega⟩).val)
    (hr1 : ∀ (j : (⟨2, ![m, n]⟩ : Shape).Idx) (q : d.contr.Idx), (d.rhsIdx j q 1).val = (j 1).val)
    (p : Fin m) (c : Fin n) :
    FloatOps.matmul d prec lhs rhs (constant ⟨2, ![m, n]⟩ .f32 0x00000000#32) (ix2 p c)
      = ∑ x : Fin k, lhs (ix2 p x) * rhs (ix2 x c) := by
  rw [Ideal.matmul_constant_zero_apply, ← Equiv.sum_comp (contrEquiv1 d k hr hs).symm]
  refine Finset.sum_congr rfl fun x _ => ?_
  have hk := contrEquiv1_symm_val d k hr hs x
  have el : d.lhsIdx (ix2 p c) ((contrEquiv1 d k hr hs).symm x) = ix2 p x := funext fun a => Fin.ext (by
    match a with
    | ⟨0, _⟩ => exact hl0 _ _
    | ⟨1, _⟩ => exact (hl1 _ _).trans hk)
  have er : d.rhsIdx (ix2 p c) ((contrEquiv1 d k hr hs).symm x) = ix2 x c := funext fun a => Fin.ext (by
    match a with
    | ⟨0, _⟩ => exact (hr0 _ _).trans hk
    | ⟨1, _⟩ => exact hr1 _ _)
  rw [el, er]

end Cert.LibRowOps

end
-- ==== Proof.LibMatmulNT.lean ====
/-
  A matrix product with the right operand contracted on its LAST axis, read at an index, on the extended reals.

  The product of an `[m, k]` matrix with an `[n, k]` matrix (the right operand transposed: `A · Bᵀ`), added into a
  zero accumulator, read at `(p, c)`, is the sum over `x` of the left matrix at `(p, x)` times the right matrix at
  `(c, x)`.  The dimension numbers enter only through the four facts that say which operand coordinate is the row,
  the column and the contracted one.
-/
import Idealize.ShloMosaic.Lib.Pipeline.Value
import Idealize.ShloMosaic.Lib.ValueIdx
import Idealize.ShloMosaic.PureOps.Ideal.Laws

noncomputable section

namespace Cert.LibMatmulNT

open Idealize.ShloMosaic Idealize.ShloMosaic.ValueIdx

/-- `A · Bᵀ` into a zero accumulator, read at `(p, c)`: the sum over the contracted coordinate `x` of the left
    operand at `(p, x)` times the right operand at `(c, x)`. -/
theorem matmul_nt_zero_apply {m k n : ℕ} {φ₁ φ₂ : FTy}
    (d : DotDims ⟨2, ![m, k]⟩ ⟨2, ![n, k]⟩ ⟨2, ![m, n]⟩) (prec : Option ContractPrecision)
    (lhs : FVec Ideal ⟨2, ![m, k]⟩ φ₁) (rhs : FVec Ideal ⟨2, ![n, k]⟩ φ₂)
    (hr : d.contr.rank = 1) (hs : d.contr.size ⟨0, by omega⟩ = k)
    (hl0 : ∀ (j : (⟨2, ![m, n]⟩ : Shape).Idx) (q : d.contr.Idx), (d.lhsIdx j q 0).val = (j 0).val)
    (hl1 : ∀ (j : (⟨2, ![m, n]⟩ : Shape).Idx) (q : d.contr.Idx), (d.lhsIdx j q 1).val = (q ⟨0, by omega⟩).val)
    (hr0 : ∀ (j : (⟨2, ![m, n]⟩ : Shape).Idx) (q : d.contr.Idx), (d.rhsIdx j q 0).val = (j 1).val)
    (hr1 : ∀ (j : (⟨2, ![m, n]⟩ : Shape).Idx) (q : d.contr.Idx), (d.rhsIdx j q 1).val = (q ⟨0, by omega⟩).val)
    (p : Fin m) (c : Fin n) :
    FloatOps.matmul d prec lhs rhs (constant ⟨2, ![m, n]⟩ .f32 0x00000000#32) (ix2 p c)
      = ∑ x : Fin k, lhs (ix2 p x) * rhs (ix2 c x) := by
  rw [Ideal.matmul_constant_zero_apply, ← Equiv.sum_comp (contrEquiv1 d k hr hs).symm]
  refine Finset.sum_congr rfl fun x _ => ?_
  have hk := contrEquiv1_symm_val d k hr hs x
  have el : d.lhsIdx (ix2 p c) ((contrEquiv1 d k hr hs).symm x) = ix2 p x := funext fun a => Fin.ext (by
    match a with
    | ⟨0, _⟩ => exact hl0 _ _
    | ⟨1, _⟩ => exact (hl1 _ _).trans hk)
  have er : d.rhsIdx (ix2 p c) ((contrEquiv1 d k hr hs).symm x) = ix2 c x := funext fun a => Fin.ext (by
    match a with
    | ⟨0, _⟩ => exact hr0 _ _
    | ⟨1, _⟩ => exact (hr1 _ _).trans hk)
  rw [el, er]

end Cert.LibMatmulNT

end
-- ==== Proof.KI.Payload.lean ====
/-
  The kernel's four stored values read at an index, on the extended reals.

  * The folded weight block: entry (p, q) is the main weight's entry plus the sum over the 64 inner coordinates r of
    (U at (p, r) times the one row S at r) times V at (r, q).  The narrowing to the 16-bit format is the identity on
    extended reals, and the matrix product into the zero accumulator is the plain sum over the contracted coordinate.
  * The fresh accumulator: zero everywhere.
  * The accumulator after one more column block: entry (p, q) is the old entry plus the sum over the block's 256
    columns i of the activation at (p, i) times the folded weight at (q, i): both operands are contracted on their
    last axis (a product with the transpose).
  * The stored result: entry (p, q) is the accumulator's entry plus the bias row at q.
-/
import proofs.«111724_j9663676416607_2_alg».proof.Proof.Gen.KernelIdeal.Skeleton
import proofs.«111724_j9663676416607_2_alg».proof.Proof.LibRowOps
import proofs.«111724_j9663676416607_2_alg».proof.Proof.LibMatmulNT
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen Idealize.ShloMosaic Idealize.ShloMosaic.ValueIdx

/-! ## Which operand coordinate is the row, the column and the contracted one -/

theorem d0_lhs0 (j : S1024x1024.Idx) (q : dot_S1024x64_S64x1024_S1024x1024_1_0_0_1_n_n.contr.Idx) : (dot_S1024x64_S64x1024_S1024x1024_1_0_0_1_n_n.lhsIdx j q 0).val = (j 0).val := by
  unfold DotDims.lhsIdx
  rw [dif_neg (show ¬(0 : Fin S1024x64.rank) ∈ dot_S1024x64_S64x1024_S1024x1024_1_0_0_1_n_n.lhsBatch by decide), dif_pos (show (0 : Fin S1024x64.rank) ∈ dot_S1024x64_S64x1024_S1024x1024_1_0_0_1_n_n.lhsNonContracting by decide)]
  rfl
theorem d0_lhs1 (j : S1024x1024.Idx) (q : dot_S1024x64_S64x1024_S1024x1024_1_0_0_1_n_n.contr.Idx) : (dot_S1024x64_S64x1024_S1024x1024_1_0_0_1_n_n.lhsIdx j q 1).val = (q ⟨0, by decide⟩).val :=
  dot_S1024x64_S64x1024_S1024x1024_1_0_0_1_n_n.lhsIdx_val_of_single rfl j q
theorem d0_rhs0 (j : S1024x1024.Idx) (q : dot_S1024x64_S64x1024_S1024x1024_1_0_0_1_n_n.contr.Idx) : (dot_S1024x64_S64x1024_S1024x1024_1_0_0_1_n_n.rhsIdx j q 0).val = (q ⟨0, by decide⟩).val :=
  dot_S1024x64_S64x1024_S1024x1024_1_0_0_1_n_n.rhsIdx_val_of_single rfl j q
theorem d0_rhs1 (j : S1024x1024.Idx) (q : dot_S1024x64_S64x1024_S1024x1024_1_0_0_1_n_n.contr.Idx) : (dot_S1024x64_S64x1024_S1024x1024_1_0_0_1_n_n.rhsIdx j q 1).val = (j 1).val := by
  unfold DotDims.rhsIdx
  rw [dif_neg (show ¬(1 : Fin S64x1024.rank) ∈ dot_S1024x64_S64x1024_S1024x1024_1_0_0_1_n_n.rhsBatch by decide), dif_pos (show (1 : Fin S64x1024.rank) ∈ dot_S1024x64_S64x1024_S1024x1024_1_0_0_1_n_n.rhsNonContracting by decide)]
  rfl

theorem d1_lhs0 (j : S1024x2048.Idx) (q : dot_S1024x256_S2048x256_S1024x2048_1_1_0_0_n_n.contr.Idx) : (dot_S1024x256_S2048x256_S1024x2048_1_1_0_0_n_n.lhsIdx j q 0).val = (j 0).val := by
  unfold DotDims.lhsIdx
  rw [dif_neg (show ¬(0 : Fin S1024x256.rank) ∈ dot_S1024x256_S2048x256_S1024x2048_1_1_0_0_n_n.lhsBatch by decide), dif_pos (show (0 : Fin S1024x256.rank) ∈ dot_S1024x256_S2048x256_S1024x2048_1_1_0_0_n_n.lhsNonContracting by decide)]
  rfl
theorem d1_lhs1 (j : S1024x2048.Idx) (q : dot_S1024x256_S2048x256_S1024x2048_1_1_0_0_n_n.contr.Idx) : (dot_S1024x256_S2048x256_S1024x2048_1_1_0_0_n_n.lhsIdx j q 1).val = (q ⟨0, by decide⟩).val :=
  dot_S1024x256_S2048x256_S1024x2048_1_1_0_0_n_n.lhsIdx_val_of_single rfl j q
theorem d1_rhs0 (j : S1024x2048.Idx) (q : dot_S1024x256_S2048x256_S1024x2048_1_1_0_0_n_n.contr.Idx) : (dot_S1024x256_S2048x256_S1024x2048_1_1_0_0_n_n.rhsIdx j q 0).val = (j 1).val := by
  unfold DotDims.rhsIdx
  rw [dif_neg (show ¬(0 : Fin S2048x256.rank) ∈ dot_S1024x256_S2048x256_S1024x2048_1_1_0_0_n_n.rhsBatch by decide), dif_pos (show (0 : Fin S2048x256.rank) ∈ dot_S1024x256_S2048x256_S1024x2048_1_1_0_0_n_n.rhsNonContracting by decide)]
  rfl
theorem d1_rhs1 (j : S1024x2048.Idx) (q : dot_S1024x256_S2048x256_S1024x2048_1_1_0_0_n_n.contr.Idx) : (dot_S1024x256_S2048x256_S1024x2048_1_1_0_0_n_n.rhsIdx j q 1).val = (q ⟨0, by decide⟩).val :=
  dot_S1024x256_S2048x256_S1024x2048_1_1_0_0_n_n.rhsIdx_val_of_single rfl j q

/-! ## The four stored values -/

/-- The folded weight block at (p, q): the main weight's entry plus the rank-64 term's. -/
theorem pay_merge (x1 : Vec Ideal S1024x64 .f32) (x2 : Vec Ideal S1x64 .f32) (x3 : Vec Ideal S64x1024 .f32)
    (x0 : Vec Ideal S1024x1024 .f32) (p q : Fin 1024) :
    k0_pay1 (F := Ideal) x1 x2 x3 x0 (ix2 p q)
      = x0 (ix2 p q) + ∑ r : Fin 64, (x1 (ix2 p r) * x2 (ix2 0 r)) * x3 (ix2 r q) := by
  unfold k0_pay1
  rw [shapeCast_self]
  refine (truncf_apply (ψ := .bf16) _ bitsLt_bf16_f32 _).trans ?_
  refine (addf_apply _ _ _).trans ?_
  refine congrArg (x0 (ix2 p q) + ·) ?_
  refine (Cert.LibRowOps.matmul_zero_apply (φ₁ := .f32) (φ₂ := .f32) dot_S1024x64_S64x1024_S1024x1024_1_0_0_1_n_n (some .fp32) _ x3 rfl rfl d0_lhs0 d0_lhs1 d0_rhs0 d0_rhs1 p q).trans ?_
  refine Finset.sum_congr rfl fun r _ => ?_
  rw [mulf_apply, broadcastTo_1b_ab_apply]

/-- The fresh accumulator is zero everywhere. -/
theorem pay_zero (p : Fin 1024) (q : Fin 2048) : k1_pay1 (F := Ideal) (ix2 p q) = 0 := by
  unfold k1_pay1
  rw [shapeCast_self, broadcast_apply]
  exact Ideal.ofBits_zero_f32

/-- The accumulator after one more column block at (p, q): the old entry plus the block's share of the product with
    the transposed weight. -/
theorem pay_acc (v3 : Vec Ideal S1024x256 .f32) (v6 : Vec Ideal S2048x256 .bf16) (v8 : Vec Ideal S1024x2048 .f32)
    (p : Fin 1024) (q : Fin 2048) :
    k1_pay2 (F := Ideal) v3 v6 v8 (ix2 p q) = v8 (ix2 p q) + ∑ i : Fin 256, v3 (ix2 p i) * v6 (ix2 q i) := by
  unfold k1_pay2
  rw [shapeCast_self, shapeCast_self, shapeCast_self]
  refine (addf_apply _ _ _).trans ?_
  refine congrArg (v8 (ix2 p q) + ·) ?_
  refine (Cert.LibMatmulNT.matmul_nt_zero_apply (φ₁ := .bf16) (φ₂ := .bf16) dot_S1024x256_S2048x256_S1024x2048_1_1_0_0_n_n none
    (truncf .bf16 v3 bitsLt_bf16_f32) v6 rfl rfl d1_lhs0 d1_lhs1 d1_rhs0 d1_rhs1 p q).trans ?_
  refine Finset.sum_congr rfl fun i _ => ?_
  rw [truncf_apply (ψ := .bf16)]

/-- The stored result at (p, q): the accumulator's entry plus the bias row at q. -/
theorem pay_out (v17 : Vec Ideal S1024x2048 .f32) (v18 : Vec Ideal S1x2048 .f32) (p : Fin 1024) (q : Fin 2048) :
    k1_pay3 (F := Ideal) v17 v18 (ix2 p q) = v17 (ix2 p q) + v18 (ix2 0 q) := by
  unfold k1_pay3
  rw [shapeCast_self]
  refine (addf_apply _ _ _).trans ?_
  rw [broadcastTo_1b_ab_apply]

end Cert.KernelIdeal.Hand

end
-- ==== Proof.KI.MergeCover.lean ====
/-
  Region 0's output array after the run, read at an index.

  The output is tiled 4 × 4 by blocks of 1024 × 1024; the point at position t has coordinates (t / 4, t % 4) and
  writes back block (t / 4, t % 4), computed from block (t / 4, t % 4) of W, row block t / 4 of U, the one row S
  and column block t % 4 of V.  Each written block is therefore the restriction to its rectangle of one
  whole-array function,  W + (U · diag S) · V,  and since the blocks tile the array it ends holding that function:
  entry (o, i) is  W[o, i] + Σᵣ (U[o, r] · S[0, r]) · V[r, i].
-/
import proofs.«111724_j9663676416607_2_alg».proof.Proof.KI.Data
import proofs.«111724_j9663676416607_2_alg».proof.Proof.KI.Payload
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable (V : (c : Dev nD) → (b : Ref sig .tc) → Buf (Elt Ideal) ((c : Thread nD τ).loc b))

/-! ## The whole-array function -/

/-- Entry (o, i) of  W + (U · diag S) · V. -/
def mergedAt (a1 : Vec Ideal S4096x4096 .f32) (a2 : Vec Ideal S4096x64 .f32) (s : Vec Ideal S1x64 .f32)
    (a4 : Vec Ideal S64x4096 .f32) (o i : Fin 4096) : EReal :=
  a1 (ix2 o i) + ∑ r : Fin 64, (a2 (ix2 o r) * s (ix2 (0 : Fin 1) r)) * a4 (ix2 r i)

/-- W + (U · diag S) · V  as an array. -/
def merged (a1 : Vec Ideal S4096x4096 .f32) (a2 : Vec Ideal S4096x64 .f32) (s : Vec Ideal S1x64 .f32)
    (a4 : Vec Ideal S64x4096 .f32) : Vec Ideal S4096x4096 .bf16 :=
  fun j => mergedAt a1 a2 s a4 (j 0) (j 1)

/-- The entry spelled out. -/
theorem mergedAt_def (a1 : Vec Ideal S4096x4096 .f32) (a2 : Vec Ideal S4096x64 .f32) (s : Vec Ideal S1x64 .f32)
    (a4 : Vec Ideal S64x4096 .f32) (o i : Fin 4096) :
    mergedAt a1 a2 s a4 o i
      = a1 (ix2 o i) + ∑ r : Fin 64, (a2 (ix2 o r) * s (ix2 (0 : Fin 1) r)) * a4 (ix2 r i) := rfl

/-! ## One block -/

/-- If the four loaded blocks are block (P, Q) of W, row block P of U, the row S and column block Q of V, the
    stored block is block (P, Q) of the whole-array function. -/
theorem merge_block (a1 : Vec Ideal S4096x4096 .f32) (a2 : Vec Ideal S4096x64 .f32) (s : Vec Ideal S1x64 .f32)
    (a4 : Vec Ideal S64x4096 .f32) (x1 : Vec Ideal S1024x64 .f32) (x2 : Vec Ideal S1x64 .f32)
    (x3 : Vec Ideal S64x1024 .f32) (x0 : Vec Ideal S1024x1024 .f32) (o i : Fin 4096)
    (p q : Fin 1024)
    (h0 : x0 (ix2 p q) = a1 (ix2 o i))
    (h1 : ∀ r : Fin 64, x1 (ix2 p r) = a2 (ix2 o r))
    (h2 : ∀ r : Fin 64, x2 (ix2 (0 : Fin 1) r) = s (ix2 (0 : Fin 1) r))
    (h3 : ∀ r : Fin 64, x3 (ix2 r q) = a4 (ix2 r i)) :
    k0_pay1 (F := Ideal) x1 x2 x3 x0 (ix2 p q) = mergedAt a1 a2 s a4 o i := by
  refine (pay_merge x1 x2 x3 x0 p q).trans ?_
  unfold mergedAt
  rw [h0]
  refine congrArg (a1 (ix2 o i) + ·) ?_
  refine Finset.sum_congr rfl fun r _ => ?_
  rw [h1 r, h2 r, h3 r]

/-! ## The windows' index maps over the 16 points -/

/-- Each window's block index at the point at position t. -/
theorem idx_facts0 : ∀ t : Fin cfg0.N,
    win0_0.index t (0 : Fin 2) = t.val / 4 ∧ win0_0.index t (1 : Fin 2) = t.val % 4
    ∧ win0_1.index t (0 : Fin 2) = t.val / 4 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = t.val % 4
    ∧ win0_4.index t (0 : Fin 2) = t.val / 4 ∧ win0_4.index t (1 : Fin 2) = t.val % 4 :=
  (by decide +kernel : ∀ t : Fin grid0.N, _)

/-- What the point at position t writes back is block t of the whole-array function of the arrays as the region
    finds them. -/
theorem flushed_eq0 (c : Dev nD) (t : Fin cfg0.N) :
    (dat0 (F := Ideal) V c).flushed 4 t = ((cfg0.win 4).blk t).view.read (Elt Ideal)
      (merged (V c main_arg1) (V c main_arg2) (V c main_v0) (V c main_arg4)) := by
  show (cfg0.win 4).cut (grid0.coords t) ((dat0 V c).after 4 t) = _
  rw [after0_4]
  funext j
  have ht : t.val < 16 := t.isLt
  have hp : (j 0).val < 1024 := (j 0).isLt
  have hq : (j 1).val < 1024 := (j 1).isLt
  obtain ⟨e00, e01, e10, e11, e20, e21, e30, e31, e40, e41⟩ := idx_facts0 t
  have hx : (cfg0.win 4).xinj (grid0.coords t) j = ix2 (⟨(j 0).val, hp⟩ : Fin 1024) (⟨(j 1).val, hq⟩ : Fin 1024) :=
    funext fun a => match a with | ⟨0, _⟩ => rfl | ⟨1, _⟩ => rfl
  have ho : t.val / 4 * 1024 + (j 0).val < 4096 := by omega
  have hi : t.val % 4 * 1024 + (j 1).val < 4096 := by omega
  have hemb : ((cfg0.win 4).blk t).view.emb j
      = ix2 (⟨t.val / 4 * 1024 + (j 0).val, ho⟩ : Fin 4096) (⟨t.val % 4 * 1024 + (j 1).val, hi⟩ : Fin 4096) := by
    funext a; apply Fin.ext
    match a with
    | ⟨0, _⟩ => show win0_4.index t (0 : Fin 2) * 1024 + 1 * (j 0).val = t.val / 4 * 1024 + (j 0).val; omega
    | ⟨1, _⟩ => show win0_4.index t (1 : Fin 2) * 1024 + 1 * (j 1).val = t.val % 4 * 1024 + (j 1).val; omega
  show k0_pay1 (F := Ideal) (iblk0 V c 1 t) (iblk0 V c 2 t) (iblk0 V c 3 t) (iblk0 V c 0 t)
      ((cfg0.win 4).xinj (grid0.coords t) j)
    = merged (V c main_arg1) (V c main_arg2) (V c main_v0) (V c main_arg4) (((cfg0.win 4).blk t).view.emb j)
  refine (congrArg (k0_pay1 (F := Ideal) (iblk0 V c 1 t) (iblk0 V c 2 t) (iblk0 V c 3 t) (iblk0 V c 0 t)) hx).trans ?_
  refine Eq.trans ?_ (congrArg (merged (V c main_arg1) (V c main_arg2) (V c main_v0) (V c main_arg4)) hemb).symm
  show _ = mergedAt (V c main_arg1) (V c main_arg2) (V c main_v0) (V c main_arg4)
    (⟨t.val / 4 * 1024 + (j 0).val, ho⟩ : Fin 4096) (⟨t.val % 4 * 1024 + (j 1).val, hi⟩ : Fin 4096)
  refine merge_block _ _ _ _ _ _ _ _ _ _ _ _ ?_ ?_ ?_ ?_
  · show V c main_arg1 (((cfg0.win 0).blk t).view.emb (ix2 (⟨(j 0).val, hp⟩ : Fin 1024) (⟨(j 1).val, hq⟩ : Fin 1024))) = _
    refine congrArg (V c main_arg1) (funext fun a => Fin.ext ?_)
    match a with
    | ⟨0, _⟩ => show win0_0.index t (0 : Fin 2) * 1024 + 1 * (j 0).val = t.val / 4 * 1024 + (j 0).val; omega
    | ⟨1, _⟩ => show win0_0.index t (1 : Fin 2) * 1024 + 1 * (j 1).val = t.val % 4 * 1024 + (j 1).val; omega
  · intro r
    show V c main_arg2 (((cfg0.win 1).blk t).view.emb (ix2 (⟨(j 0).val, hp⟩ : Fin 1024) r)) = _
    refine congrArg (V c main_arg2) (funext fun a => Fin.ext ?_)
    match a with
    | ⟨0, _⟩ => show win0_1.index t (0 : Fin 2) * 1024 + 1 * (j 0).val = t.val / 4 * 1024 + (j 0).val; omega
    | ⟨1, _⟩ => show win0_1.index t (1 : Fin 2) * 64 + 1 * r.val = r.val; omega
  · intro r
    show V c main_v0 (((cfg0.win 2).blk t).view.emb (ix2 (0 : Fin 1) r)) = _
    refine congrArg (V c main_v0) (funext fun a => Fin.ext ?_)
    match a with
    | ⟨0, _⟩ => show win0_2.index t (0 : Fin 2) * 1 + 1 * (0 : Fin 1).val = (0 : Fin 1).val; omega
    | ⟨1, _⟩ => show win0_2.index t (1 : Fin 2) * 64 + 1 * r.val = r.val; omega
  · intro r
    show V c main_arg4 (((cfg0.win 3).blk t).view.emb (ix2 r (⟨(j 1).val, hq⟩ : Fin 1024))) = _
    refine congrArg (V c main_arg4) (funext fun a => Fin.ext ?_)
    match a with
    | ⟨0, _⟩ => show win0_3.index t (0 : Fin 2) * 64 + 1 * r.val = r.val; omega
    | ⟨1, _⟩ => show win0_3.index t (1 : Fin 2) * 1024 + 1 * (j 1).val = t.val % 4 * 1024 + (j 1).val; omega

/-! ## The blocks tile the array -/

/-- An index of the array is in point t's block iff each coordinate is in the block's range on its axis. -/
theorem mem_blk0 (t : Fin cfg0.N) (i : S4096x4096.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v1).slice (win0_4.rect t)).set ↔ _
  rw [View.set_slice_whole, Rect.mem_set_unit]
  exact Iff.rfl

/-- Every index (o, i) of the array is in the block of the point at position 4 · (o / 1024) + i / 1024, and every
    point writes its block back. -/
theorem cover0 (i : S4096x4096.Idx) :
    ∃ t : Fin cfg0.N, (cfg0.win 4).flush t = true ∧ i ∈ ((cfg0.win 4).blk t).view.set := by
  have hi0 : (i 0).val < 4096 := (i 0).isLt
  have hi1 : (i 1).val < 4096 := (i 1).isLt
  have hN : 4 * ((i 0).val / 1024) + (i 1).val / 1024 < 16 := by omega
  obtain ⟨-, -, -, -, -, -, -, -, e40, e41⟩ :=
    idx_facts0 (⟨4 * ((i 0).val / 1024) + (i 1).val / 1024, hN⟩ : Fin cfg0.N)
  have q0 : win0_4.index (⟨4 * ((i 0).val / 1024) + (i 1).val / 1024, hN⟩ : Fin cfg0.N) (0 : Fin 2)
      = (4 * ((i 0).val / 1024) + (i 1).val / 1024) / 4 := e40
  have q1 : win0_4.index (⟨4 * ((i 0).val / 1024) + (i 1).val / 1024, hN⟩ : Fin cfg0.N) (1 : Fin 2)
      = (4 * ((i 0).val / 1024) + (i 1).val / 1024) % 4 := e41
  refine ⟨⟨4 * ((i 0).val / 1024) + (i 1).val / 1024, hN⟩, flush0_4 _, ?_⟩
  rw [mem_blk0]
  intro a
  match a with
  | ⟨0, _⟩ =>
    show win0_4.index (⟨4 * ((i 0).val / 1024) + (i 1).val / 1024, hN⟩ : Fin cfg0.N) (0 : Fin 2) * 1024 ≤ (i 0).val
      ∧ (i 0).val < win0_4.index (⟨4 * ((i 0).val / 1024) + (i 1).val / 1024, hN⟩ : Fin cfg0.N) (0 : Fin 2) * 1024 + 1024
    omega
  | ⟨1, _⟩ =>
    show win0_4.index (⟨4 * ((i 0).val / 1024) + (i 1).val / 1024, hN⟩ : Fin cfg0.N) (1 : Fin 2) * 1024 ≤ (i 1).val
      ∧ (i 1).val < win0_4.index (⟨4 * ((i 0).val / 1024) + (i 1).val / 1024, hN⟩ : Fin cfg0.N) (1 : Fin 2) * 1024 + 1024
    omega

/-! ## The array after the run -/

/-- Region 0's output array ends holding  W + (U · diag S) · V  of the arrays as the region finds them. -/
theorem final0 (c : Dev nD) :
    (dat0 (F := Ideal) V c).arrAt 4 cfg0.N
      = merged (V c main_arg1) (V c main_arg2) (V c main_v0) (V c main_arg4) :=
  (dat0 (F := Ideal) V c).arrAt_eq_of_cover 4 _ (fun t _ => flushed_eq0 V c t) cover0

/-- Entry (o, i) of region 0's output array after the run:  W[o, i] + Σᵣ (U[o, r] · S[0, r]) · V[r, i]. -/
theorem final0_apply' (c : Dev nD) (o i : Fin 4096) :
    ((dat0 (F := Ideal) V c).arrAt 4 cfg0.N (ix2 o i) : EReal)
      = mergedAt (V c main_arg1) (V c main_arg2) (V c main_v0) (V c main_arg4) o i :=
  (congrFun (final0 V c) (ix2 o i)).trans rfl

end Cert.KernelIdeal.Hand

end
-- ==== Proof.KI.MatmulAcc.lean ====
/-
  Region 1's partial sums, read at an index, on the extended reals.

  The grid is 8 × 2 × 16 with the last coordinate innermost: point t has coordinates (t / 32, t / 16 mod 2, t mod 16).
  At point t the activation block is rows 1024·(t / 32) + p and columns 256·(t mod 16) + i of X, the weight block is
  rows 2048·(t / 16 mod 2) + q and the same columns of the folded weight, and the bias block is columns
  2048·(t / 16 mod 2) + q of the one bias row.  So the scratch after point t holds, at (p, q), the sum over the first
  (t mod 16) + 1 runs of 256 columns of  X(row, s) · W(col, s):  by induction on t, one run added per point, starting
  again from zero wherever t mod 16 = 0.
-/
import proofs.«111724_j9663676416607_2_alg».proof.Proof.KI.Data
import proofs.«111724_j9663676416607_2_alg».proof.Proof.KI.Payload
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable (V : (c : Dev nD) → (b : Ref sig .tc) → Buf (Elt Ideal) ((c : Thread nD τ).loc b))

/-! ## The arrays and the blocks, typed -/

/-- X as the region finds it: 8192 × 4096. -/
abbrev arrX (c : Dev nD) : S8192x4096.Idx → EReal := V c main_v2
/-- The folded weight as the region finds it: 4096 × 4096. -/
abbrev arrW (c : Dev nD) : S4096x4096.Idx → EReal := V c main_v1
/-- The bias row as the region finds it: 1 × 4096. -/
abbrev arrB (c : Dev nD) : S1x4096.Idx → EReal := V c main_v3
/-- The activation block at point `t`. -/
abbrev blk0 (c : Dev nD) (t : Fin cfg1.N) : Vec Ideal S1024x256 .f32 := iblk1 V c 0 t
/-- The weight block at point `t`. -/
abbrev blk1 (c : Dev nD) (t : Fin cfg1.N) : Vec Ideal S2048x256 .bf16 := iblk1 V c 1 t
/-- The bias block at point `t`. -/
abbrev blk2 (c : Dev nD) (t : Fin cfg1.N) : Vec Ideal S1x2048 .f32 := iblk1 V c 2 t

/-! ## The index maps over the grid -/

/-- The printed index maps, decided over the 256 points: each window's block index from the point's position. -/
theorem idx_facts1 : ∀ t : Fin cfg1.N,
    win1_0.index t (0 : Fin 2) = t.val / 32 ∧ win1_0.index t (1 : Fin 2) = t.val % 16
    ∧ win1_1.index t (0 : Fin 2) = t.val / 16 % 2 ∧ win1_1.index t (1 : Fin 2) = t.val % 16
    ∧ win1_2.index t (0 : Fin 2) = 0 ∧ win1_2.index t (1 : Fin 2) = t.val / 16 % 2
    ∧ win1_3.index t (0 : Fin 2) = t.val / 32 ∧ win1_3.index t (1 : Fin 2) = t.val / 16 % 2 :=
  (by decide +kernel : ∀ t : Fin grid1.N, _)

/-! ## The input blocks read at an index -/

/-- The activation block at point `t`, at (p, i): X at row 1024·(t / 32) + p, column 256·(t mod 16) + i. -/
theorem blkX (c : Dev nD) (t : Fin cfg1.N) (p : Fin 1024) (i : Fin 256) (R : Fin 8192) (S : Fin 4096)
    (hR : R.val = 1024 * (t.val / 32) + p.val) (hS : S.val = 256 * (t.val % 16) + i.val) :
    blk0 V c t (ix2 p i) = arrX V c (ix2 R S) := by
  obtain ⟨e0, e1, -⟩ := idx_facts1 t
  show V c main_v2 (((cfg1.win 0).blk t).view.emb (ix2 p i)) = V c main_v2 (ix2 R S)
  refine congrArg _ (funext fun a => Fin.ext ?_)
  match a with
  | ⟨0, _⟩ => show win1_0.index t (0 : Fin 2) * 1024 + 1 * p.val = R.val; omega
  | ⟨1, _⟩ => show win1_0.index t (1 : Fin 2) * 256 + 1 * i.val = S.val; omega

/-- The weight block at point `t`, at (q, i): the folded weight at row 2048·(t / 16 mod 2) + q, column
    256·(t mod 16) + i. -/
theorem blkW (c : Dev nD) (t : Fin cfg1.N) (q : Fin 2048) (i : Fin 256) (C : Fin 4096) (S : Fin 4096)
    (hC : C.val = 2048 * (t.val / 16 % 2) + q.val) (hS : S.val = 256 * (t.val % 16) + i.val) :
    blk1 V c t (ix2 q i) = arrW V c (ix2 C S) := by
  obtain ⟨-, -, e2, e3, -⟩ := idx_facts1 t
  show V c main_v1 (((cfg1.win 1).blk t).view.emb (ix2 q i)) = V c main_v1 (ix2 C S)
  refine congrArg _ (funext fun a => Fin.ext ?_)
  match a with
  | ⟨0, _⟩ => show win1_1.index t (0 : Fin 2) * 2048 + 1 * q.val = C.val; omega
  | ⟨1, _⟩ => show win1_1.index t (1 : Fin 2) * 256 + 1 * i.val = S.val; omega

/-- The bias block at point `t`, at (0, q): the bias row at column 2048·(t / 16 mod 2) + q. -/
theorem blkB (c : Dev nD) (t : Fin cfg1.N) (q : Fin 2048) (C : Fin 4096)
    (hC : C.val = 2048 * (t.val / 16 % 2) + q.val) :
    blk2 V c t (ix2 (0 : Fin 1) q) = arrB V c (ix2 (0 : Fin 1) C) := by
  obtain ⟨-, -, -, -, e4, e5, -⟩ := idx_facts1 t
  show V c main_v3 (((cfg1.win 2).blk t).view.emb (ix2 (0 : Fin 1) q)) = V c main_v3 (ix2 (0 : Fin 1) C)
  refine congrArg _ (funext fun a => Fin.ext ?_)
  match a with
  | ⟨0, _⟩ => show win1_2.index t (0 : Fin 2) * 1 + 1 * 0 = 0; omega
  | ⟨1, _⟩ => show win1_2.index t (1 : Fin 2) * 2048 + 1 * q.val = C.val; omega

/-! ## The partial sums -/

/-- One column's term of the product at row `R` of X and row `C` of the folded weight, on natural column numbers
    (zero past the last column). -/
def term (c : Dev nD) (R : Fin 8192) (C : Fin 4096) (s : ℕ) : EReal :=
  if h : s < 4096 then arrX V c (ix2 R ⟨s, h⟩) * arrW V c (ix2 C ⟨s, h⟩) else 0

/-- The product of the two blocks at point `t`, at (p, q): run `t mod 16` of the terms. -/
theorem step_sum (c : Dev nD) (t : Fin cfg1.N) (p : Fin 1024) (q : Fin 2048) (R : Fin 8192) (C : Fin 4096) (k : ℕ)
    (hR : R.val = 1024 * (t.val / 32) + p.val) (hC : C.val = 2048 * (t.val / 16 % 2) + q.val) (hk : t.val % 16 = k) :
    ∑ i : Fin 256, blk0 V c t (ix2 p i) * blk1 V c t (ix2 q i) = ∑ i : Fin 256, term V c R C (256 * k + i.val) := by
  refine Finset.sum_congr rfl fun i _ => ?_
  have hs : 256 * k + i.val < 4096 := by have := i.isLt; omega
  unfold term
  rw [dif_pos hs]
  exact congrArg₂ (· * ·) (blkX V c t p i R ⟨256 * k + i.val, hs⟩ hR (by rw [hk]))
    (blkW V c t q i C ⟨256 * k + i.val, hs⟩ hC (by rw [hk]))

/-- The scratch after point `n`, at (p, q): the first (n mod 16) + 1 runs of 256 terms. -/
theorem acc_apply (c : Dev nD) : ∀ (n : ℕ) (h : n < cfg1.N) (p : Fin 1024) (q : Fin 2048) (R : Fin 8192) (C : Fin 4096),
    R.val = 1024 * (n / 32) + p.val → C.val = 2048 * (n / 16 % 2) + q.val →
    acc V c n h (ix2 p q) = ∑ k ∈ Finset.range (n % 16 + 1), ∑ i : Fin 256, term V c R C (256 * k + i.val)
  | 0, h, p, q, R, C, hR, hC => by
    show k1_pay2 (F := Ideal) (blk0 V c ⟨0, h⟩) (blk1 V c ⟨0, h⟩) (k1_pay1 (F := Ideal)) (ix2 p q) = _
    refine (pay_acc (blk0 V c ⟨0, h⟩) (blk1 V c ⟨0, h⟩) _ p q).trans ?_
    rw [pay_zero, zero_add]
    show _ = ∑ k ∈ Finset.range 1, _
    rw [Finset.sum_range_one]
    exact step_sum V c ⟨0, h⟩ p q R C 0 hR hC rfl
  | n + 1, h, p, q, R, C, hR, hC => by
    show k1_pay2 (F := Ideal) (blk0 V c ⟨n + 1, h⟩) (blk1 V c ⟨n + 1, h⟩)
      (if (n + 1) % 16 = 0 then (k1_pay1 (F := Ideal)) else acc V c n (Nat.lt_of_succ_lt h)) (ix2 p q) = _
    refine (pay_acc (blk0 V c ⟨n + 1, h⟩) (blk1 V c ⟨n + 1, h⟩) _ p q).trans ?_
    by_cases h0 : (n + 1) % 16 = 0
    · rw [if_pos h0, pay_zero, zero_add, h0]
      show _ = ∑ k ∈ Finset.range 1, _
      rw [Finset.sum_range_one]
      exact step_sum V c ⟨n + 1, h⟩ p q R C 0 hR hC h0
    · have e : (n + 1) % 16 = n % 16 + 1 := by omega
      rw [if_neg h0, e, Finset.sum_range_succ]
      refine congrArg₂ (· + ·) (acc_apply c n (Nat.lt_of_succ_lt h) p q R C (by omega) (by omega)) ?_
      exact step_sum V c ⟨n + 1, h⟩ p q R C (n % 16 + 1) hR hC e

end Cert.KernelIdeal.Hand

end
-- ==== Proof.LibRangeRuns.lean ====
/-
  A sum over consecutive natural numbers, taken run by run.

  The sum of `F` over the first `a · b` naturals is the sum, over the `a` consecutive runs of length `b`, of the sums
  of `F` over each run: `∑_{s < a} ∑_{j < b} F (b·s + j) = ∑_{n < a·b} F n`, in any additive commutative monoid.  A
  reduction that a program walks in equal consecutive chunks, adding each chunk's partial sum into an accumulator,
  is regrouped into the one sum by this.
-/
import Mathlib.Algebra.BigOperators.Intervals

open scoped BigOperators

namespace Cert.LibRangeRuns

/-- A sum over `a · b` consecutive naturals is the sum over its `a` consecutive runs of length `b`. -/
theorem sum_range_runs {β : Type*} [AddCommMonoid β] (b : ℕ) (F : ℕ → β) :
    ∀ a : ℕ, ∑ s ∈ Finset.range a, ∑ j ∈ Finset.range b, F (b * s + j) = ∑ n ∈ Finset.range (a * b), F n
  | 0 => by simp
  | a + 1 => by
    rw [Finset.sum_range_succ, sum_range_runs b F a, Nat.succ_mul, Finset.sum_range_add, Nat.mul_comm b a]

/-- The same with each run indexed by `Fin b`. -/
theorem sum_range_runs_fin {β : Type*} [AddCommMonoid β] (a b : ℕ) (F : ℕ → β) :
    ∑ s ∈ Finset.range a, ∑ j : Fin b, F (b * s + j.val) = ∑ n ∈ Finset.range (a * b), F n := by
  rw [← sum_range_runs b F a]
  exact Finset.sum_congr rfl fun s _ => Fin.sum_univ_eq_sum_range (fun j => F (b * s + j)) b

end Cert.LibRangeRuns
-- ==== Proof.KI.MatmulCover.lean ====
/-
  Region 1's output array after the run.

  The output is tiled 8 × 2 by blocks of 1024 × 2048; block (i, j) is written back once, at the last point of its
  run over k: position (i · 2 + j) · 16 + 15.  If what every such point writes back is its block of one whole-array
  function, the array ends holding that function: an index (r, s) lies in the block of (r / 1024, s / 2048), and that
  block is some writing point's.

  On the extended reals that function is  X · Wᵀ + bias:  at a writing point (t mod 16 = 15) the scratch holds all 16
  runs of 256 terms, which is the one sum over the 4096 columns, and the stored value adds the bias row's entry.
-/
import proofs.«111724_j9663676416607_2_alg».proof.Proof.KI.Data
import proofs.«111724_j9663676416607_2_alg».proof.Proof.KI.Payload
import proofs.«111724_j9663676416607_2_alg».proof.Proof.KI.MatmulAcc
import proofs.«111724_j9663676416607_2_alg».proof.Proof.LibRangeRuns
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

/-! ## The cover, at any float instance -/

section Cover

variable {F : FTy → Type} [FloatOps F]

variable (V : (c : Dev nD) → (b : Ref sig .tc) → Buf (Elt F) ((c : Thread nD τ).loc b))

/-- Every block of the 8 × 2 tiling is the block of some point that writes back. -/
theorem idx_onto1 : ∀ (q0 : Fin 8) (q1 : Fin 2), ∃ t : Fin cfg1.N, t.val % 16 = 15 ∧ win1_3.index t = ![q0.val, q1.val] :=
  (by decide +kernel : ∀ (q0 : Fin 8) (q1 : Fin 2), ∃ t : Fin grid1.N, t.val % 16 = 15 ∧ win1_3.index t = ![q0.val, q1.val])

/-- An index of the array is in point `t`'s block iff each coordinate is in the block's range on its axis. -/
theorem mem_blk1 (t : Fin cfg1.N) (i : S8192x4096.Idx) :
    i ∈ ((cfg1.win 3).blk t).view.set ↔ ∀ a : Fin 2, win1_3.index t a * S1024x2048.size a ≤ (i a).val
      ∧ (i a).val < win1_3.index t a * S1024x2048.size a + S1024x2048.size a := by
  show i ∈ ((View.whole main_v4).slice (win1_3.rect t)).set ↔ _
  rw [View.set_slice_whole, Rect.mem_set_unit]
  exact Iff.rfl

/-- Every index of the array is in the block of some point that writes back. -/
theorem cover1 (i : S8192x4096.Idx) :
    ∃ t : Fin cfg1.N, (cfg1.win 3).flush t = true ∧ i ∈ ((cfg1.win 3).blk t).view.set := by
  have hi0 : (i 0).val < 8192 := (i 0).isLt
  have hi1 : (i 1).val < 4096 := (i 1).isLt
  obtain ⟨t, ht15, ht⟩ := idx_onto1 ⟨(i 0).val / 1024, by omega⟩ ⟨(i 1).val / 2048, by omega⟩
  have q0 : win1_3.index t (0 : Fin 2) = (i 0).val / 1024 := congrFun ht 0
  have q1 : win1_3.index t (1 : Fin 2) = (i 1).val / 2048 := congrFun ht 1
  refine ⟨t, (flush1_3 t).2 ht15, ?_⟩
  rw [mem_blk1]
  intro a
  match a with
  | ⟨0, _⟩ =>
    show win1_3.index t (0 : Fin 2) * 1024 ≤ (i 0).val ∧ (i 0).val < win1_3.index t (0 : Fin 2) * 1024 + 1024
    omega
  | ⟨1, _⟩ =>
    show win1_3.index t (1 : Fin 2) * 2048 ≤ (i 1).val ∧ (i 1).val < win1_3.index t (1 : Fin 2) * 2048 + 2048
    omega

/-- The output array after the run: if every point that writes back (`k = 15`) writes its block of `G`, the array
    ends holding `G`. -/
theorem final1 (c : Dev nD) (G : Buf (Elt F) ((cfg1.win 3).arr.view.loc (c : Thread nD τ)))
    (hG : ∀ t : Fin cfg1.N, t.val % 16 = 15 →
      (dat1 V c).flushed 3 t = ((cfg1.win 3).blk t).view.read (Elt F) G) :
    (dat1 V c).arrAt 3 cfg1.N = G :=
  (dat1 V c).arrAt_eq_of_cover 3 G (fun t hf => hG t ((flush1_3 t).1 hf)) cover1

end Cover

/-! ## The value, on the extended reals -/

section Value

variable (V : (c : Dev nD) → (b : Ref sig .tc) → Buf (Elt Ideal) ((c : Thread nD τ).loc b))

/-- Entry (r, o) of  x · wᵀ + bias,  for any three arrays of the region's shapes. -/
def prodAt (x : Vec Ideal S8192x4096 .f32) (w : Vec Ideal S4096x4096 .bf16) (bias : Vec Ideal S1x4096 .f32)
    (r : Fin 8192) (o : Fin 4096) : EReal :=
  (∑ i : Fin 4096, x (ix2 r i) * w (ix2 o i)) + bias (ix2 (0 : Fin 1) o)

/-- Entry (r, o) of  X · Wᵀ + bias. -/
def outAt (c : Dev nD) (r : Fin 8192) (o : Fin 4096) : EReal :=
  (∑ i : Fin 4096, arrX V c (ix2 r i) * arrW V c (ix2 o i)) + arrB V c (ix2 (0 : Fin 1) o)

/-- X · Wᵀ + bias as a whole array. -/
def outArr (c : Dev nD) : S8192x4096.Idx → EReal :=
  fun j => outAt V c ⟨(j 0).val, (j 0).isLt⟩ ⟨(j 1).val, (j 1).isLt⟩

/-- The whole array at an index whose coordinates are `R` and `C`. -/
theorem outArr_apply (c : Dev nD) (x : S8192x4096.Idx) (R : Fin 8192) (C : Fin 4096)
    (hR : (x 0).val = R.val) (hC : (x 1).val = C.val) : outArr V c x = outAt V c R C := by
  obtain ⟨R, hRlt⟩ := R
  obtain ⟨C, hClt⟩ := C
  simp only at hR hC
  subst hR hC
  rfl

/-- The sum over the 4096 columns is the sum over its 16 runs of 256 terms. -/
theorem sum_runs (c : Dev nD) (R : Fin 8192) (C : Fin 4096) :
    ∑ k ∈ Finset.range 16, ∑ i : Fin 256, term V c R C (256 * k + i.val)
      = ∑ i : Fin 4096, arrX V c (ix2 R i) * arrW V c (ix2 C i) := by
  rw [Cert.LibRangeRuns.sum_range_runs_fin 16 256 (term V c R C)]
  show ∑ n ∈ Finset.range 4096, term V c R C n = _
  rw [← Fin.sum_univ_eq_sum_range (term V c R C) 4096]
  refine Finset.sum_congr rfl fun i _ => ?_
  unfold term
  rw [dif_pos i.isLt]

/-- What a writing point writes back is its block of  X · Wᵀ + bias. -/
theorem flushed1_eq (c : Dev nD) (t : Fin cfg1.N) (h15 : t.val % 16 = 15) :
    (dat1 (F := Ideal) V c).flushed 3 t = ((cfg1.win 3).blk t).view.read (Elt Ideal) (outArr V c) := by
  obtain ⟨-, -, -, -, -, -, e6, e7⟩ := idx_facts1 t
  have hN : t.val < 256 := t.isLt.trans_eq N_1
  funext j
  have hj0 : (j 0).val < 1024 := (j 0).isLt
  have hj1 : (j 1).val < 2048 := (j 1).isLt
  have hR : 1024 * (t.val / 32) + (j 0).val < 8192 := by omega
  have hC : 2048 * (t.val / 16 % 2) + (j 1).val < 4096 := by omega
  have hx : (cfg1.win 3).xinj (cfg1.grid.coords t) j = ix2 (⟨(j 0).val, hj0⟩ : Fin 1024) (⟨(j 1).val, hj1⟩ : Fin 2048) :=
    funext fun a => match a with | ⟨0, _⟩ => rfl | ⟨1, _⟩ => rfl
  refine Eq.trans (congrArg (k1_pay3 (F := Ideal) (acc V c t.val t.isLt) (blk2 V c t)) hx) ?_
  refine (pay_out _ (blk2 V c t) _ _).trans ?_
  refine Eq.trans ?_ (outArr_apply V c (((cfg1.win 3).blk t).view.emb j) ⟨_, hR⟩ ⟨_, hC⟩ ?_ ?_).symm
  · rw [acc_apply V c t.val t.isLt ⟨(j 0).val, hj0⟩ ⟨(j 1).val, hj1⟩ ⟨_, hR⟩ ⟨_, hC⟩ rfl rfl, h15,
      blkB V c t ⟨(j 1).val, hj1⟩ ⟨_, hC⟩ rfl]
    show (∑ k ∈ Finset.range 16, _) + _ = _
    rw [sum_runs]
    rfl
  · show win1_3.index t (0 : Fin 2) * 1024 + 1 * (j 0).val = 1024 * (t.val / 32) + (j 0).val
    omega
  · show win1_3.index t (1 : Fin 2) * 2048 + 1 * (j 1).val = 2048 * (t.val / 16 % 2) + (j 1).val
    omega

/-- Region 1's output array after the run, at (r, o):  X · Wᵀ + bias. -/
theorem final1_apply (c : Dev nD) (r : Fin 8192) (o : Fin 4096) :
    (dat1 (F := Ideal) V c).arrAt 3 cfg1.N (ix2 r o)
      = (∑ i : Fin 4096, arrX V c (ix2 r i) * arrW V c (ix2 o i)) + arrB V c (ix2 (0 : Fin 1) o) := by
  rw [final1 V c (outArr V c) (fun t h => flushed1_eq V c t h)]
  exact outArr_apply V c (ix2 r o) r o rfl rfl

/-- The same through `prodAt` of the three arrays as the region finds them. -/
theorem final1_apply' (c : Dev nD) (r : Fin 8192) (o : Fin 4096) :
    ((dat1 (F := Ideal) V c).arrAt 3 cfg1.N (ix2 r o) : EReal) = prodAt (V c main_v2) (V c main_v1) (V c main_v3) r o :=
  final1_apply V c r o

end Value

end Cert.KernelIdeal.Hand

end
-- ==== Proof.Spec.lean ====
/-
  The two closed forms this certificate relates, as plain functions of finite indices over the
  extended reals, and their equality on real entries.

  `ref`    :  x·Wᵀ + ((x·Vᵀ)·s)·Uᵀ + bias          (three contractions)
  `folded` :  W + (U·diag s)·V                      (the weight with the low-rank term folded in)
  `ker`    :  x·foldedᵀ + bias                      (one contraction)

  On real (finite) entries the two agree: distribute the product over the inner sum, exchange the
  two finite sums, and reassociate the products.  The bias is the same last summand on both sides
  and may be any extended real.
-/
import Mathlib.Data.EReal.Operations
import Mathlib.Algebra.BigOperators.Ring.Finset
import Mathlib.Algebra.BigOperators.Fin
import Mathlib.Tactic.Ring

noncomputable section

namespace Cert.Spec

open BigOperators

/-- The coercion of the reals into the extended reals commutes with a finite sum. -/
theorem coe_finset_sum {ι : Type*} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The reference: x·Wᵀ + ((x·Vᵀ)·s)·Uᵀ + bias, entry (b, p, o). -/
def ref (x : Fin 8 → Fin 1024 → Fin 4096 → EReal) (w : Fin 4096 → Fin 4096 → EReal)
    (u : Fin 4096 → Fin 64 → EReal) (s : Fin 64 → EReal) (v : Fin 64 → Fin 4096 → EReal)
    (bias : Fin 4096 → EReal) (b : Fin 8) (p : Fin 1024) (o : Fin 4096) : EReal :=
  ((∑ i : Fin 4096, x b p i * w o i)
    + ∑ r : Fin 64, ((∑ i : Fin 4096, x b p i * v r i) * s r) * u o r) + bias o

/-- The folded weight: W + (U·diag s)·V, entry (o, i). -/
def folded (w : Fin 4096 → Fin 4096 → EReal) (u : Fin 4096 → Fin 64 → EReal)
    (s : Fin 64 → EReal) (v : Fin 64 → Fin 4096 → EReal) (o i : Fin 4096) : EReal :=
  w o i + ∑ r : Fin 64, (u o r * s r) * v r i

/-- The kernel's closed form: x·foldedᵀ + bias, entry (b, p, o). -/
def ker (x : Fin 8 → Fin 1024 → Fin 4096 → EReal) (w : Fin 4096 → Fin 4096 → EReal)
    (u : Fin 4096 → Fin 64 → EReal) (s : Fin 64 → EReal) (v : Fin 64 → Fin 4096 → EReal)
    (bias : Fin 4096 → EReal) (b : Fin 8) (p : Fin 1024) (o : Fin 4096) : EReal :=
  (∑ i : Fin 4096, x b p i * folded w u s v o i) + bias o

/-- The same identity over the reals: Σᵢ xᵢ (wᵢ + Σᵣ (uᵣ sᵣ) vᵣᵢ) = Σᵢ xᵢ wᵢ + Σᵣ ((Σᵢ xᵢ vᵣᵢ) sᵣ) uᵣ. -/
theorem real_identity {n k : ℕ} (x w : Fin n → ℝ) (u s : Fin k → ℝ) (v : Fin k → Fin n → ℝ) :
    (∑ i, x i * (w i + ∑ r, (u r * s r) * v r i))
      = (∑ i, x i * w i) + ∑ r, ((∑ i, x i * v r i) * s r) * u r := by
  have h1 : ∀ i, x i * (w i + ∑ r, (u r * s r) * v r i)
      = x i * w i + ∑ r, x i * v r i * s r * u r := by
    intro i
    rw [mul_add, Finset.mul_sum]
    congr 1
    exact Finset.sum_congr rfl fun r _ => by ring
  rw [Finset.sum_congr rfl fun i _ => h1 i, Finset.sum_add_distrib, Finset.sum_comm]
  congr 1
  refine Finset.sum_congr rfl fun r _ => ?_
  rw [Finset.sum_mul, Finset.sum_mul]

/-- The identity on extended reals that are coercions of reals. -/
theorem ereal_identity {n k : ℕ} (x w : Fin n → ℝ) (u s : Fin k → ℝ) (v : Fin k → Fin n → ℝ) :
    (∑ i, (x i : EReal) * ((w i : EReal) + ∑ r, ((u r : EReal) * (s r : EReal)) * (v r i : EReal)))
      = (∑ i, (x i : EReal) * (w i : EReal))
        + ∑ r, ((∑ i, (x i : EReal) * (v r i : EReal)) * (s r : EReal)) * (u r : EReal) := by
  simp only [← EReal.coe_mul, ← coe_finset_sum, ← EReal.coe_add]
  exact congrArg _ (real_identity x w u s v)

/-- On real entries of x, W, U, s, V (the bias arbitrary), the folded form equals the reference. -/
theorem ker_eq_ref (x : Fin 8 → Fin 1024 → Fin 4096 → EReal) (w : Fin 4096 → Fin 4096 → EReal)
    (u : Fin 4096 → Fin 64 → EReal) (s : Fin 64 → EReal) (v : Fin 64 → Fin 4096 → EReal)
    (bias : Fin 4096 → EReal)
    (hx : ∀ b p i, ∃ a : ℝ, x b p i = (a : EReal)) (hw : ∀ o i, ∃ a : ℝ, w o i = (a : EReal))
    (hu : ∀ o r, ∃ a : ℝ, u o r = (a : EReal)) (hs : ∀ r, ∃ a : ℝ, s r = (a : EReal))
    (hv : ∀ r i, ∃ a : ℝ, v r i = (a : EReal)) (b : Fin 8) (p : Fin 1024) (o : Fin 4096) :
    ker x w u s v bias b p o = ref x w u s v bias b p o := by
  choose x' hx' using hx
  choose w' hw' using hw
  choose u' hu' using hu
  choose s' hs' using hs
  choose v' hv' using hv
  have ex : x = fun b p i => (x' b p i : EReal) := by funext b p i; exact hx' b p i
  have ew : w = fun o i => (w' o i : EReal) := by funext o i; exact hw' o i
  have eu : u = fun o r => (u' o r : EReal) := by funext o r; exact hu' o r
  have es : s = fun r => (s' r : EReal) := by funext r; exact hs' r
  have ev : v = fun r i => (v' r i : EReal) := by funext r i; exact hv' r i
  subst ex ew eu es ev
  unfold ker ref folded
  exact congrArg (· + bias o) (ereal_identity (x' b p) (w' o) (u' o) s' v')

end Cert.Spec

end
-- ==== Proof.KI.KerBuf.lean ====
/-
  The idealized kernel's result array as ONE function of its six argument arrays: entry (b, p, o) is
  Σ_i x(b,p,i) · (W(o,i) + Σ_r (U(o,r) · S(r)) · V(r,i)) + bias(o)  (`Spec.ker`).
-/
import proofs.«111724_j9663676416607_2_alg».proof.KernelIdeal
import proofs.«111724_j9663676416607_2_alg».proof.Proof.Spec
import Idealize.ShloMosaic.Lib.ValueIdx

noncomputable section

namespace Cert.KernelIdeal.Hand

open Idealize.ShloMosaic Idealize.ShloMosaic.ValueIdx
open Cert.KernelIdeal

/-- The result array as the folded form of the six argument arrays. -/
def kerBuf (a0 : Vec Ideal S8x1024x4096 .f32) (a1 : Vec Ideal S4096x4096 .f32) (a2 : Vec Ideal S4096x64 .f32)
    (a3 : Vec Ideal S64 .f32) (a4 : Vec Ideal S64x4096 .f32) (a5 : Vec Ideal S4096 .f32) : Vec Ideal S8x1024x4096 .f32 :=
  fun j => Cert.Spec.ker (fun b p i => a0 (ix3 b p i)) (fun o i => a1 (ix2 o i)) (fun o r => a2 (ix2 o r)) (fun r => a3 (ix1 r))
    (fun r i => a4 (ix2 r i)) (fun o => a5 (ix1 o)) (j 0) (j 1) (j 2)

end Cert.KernelIdeal.Hand

end
-- ==== Proof.KI.Value.lean ====
/-
  The idealized kernel's result as one function of its six arguments. Region 0 leaves the folded weight
  W + (U · diag S) · V, region 1 leaves X · (folded weight)ᵀ + bias on the rows 1024·b + p of the reshaped X,
  and the last reshape reads that back at (b, p, o): the result is `Spec.ker` of the launch contents.
-/
import proofs.«111724_j9663676416607_2_alg».proof.Proof.KI.Host
import proofs.«111724_j9663676416607_2_alg».proof.Proof.KI.MergeCover
import proofs.«111724_j9663676416607_2_alg».proof.Proof.KI.MatmulCover
import proofs.«111724_j9663676416607_2_alg».proof.Proof.KI.KerBuf

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ)

/-- The folded weight region 1 reads, entry (o, i), from the launch contents. -/
theorem V3_v1_apply (c : Dev nD) (o i : Fin 4096) :
    (V3 m c main_v1 (ix2 o i) : EReal)
      = Cert.Spec.folded (fun o i => (m ((c : Thread nD τ).loc main_arg1) : Vec Ideal S4096x4096 .f32) (ix2 o i))
          (fun o r => (m ((c : Thread nD τ).loc main_arg2) : Vec Ideal S4096x64 .f32) (ix2 o r))
          (fun r => (m ((c : Thread nD τ).loc main_arg3) : Vec Ideal S64 .f32) (ix1 r))
          (fun r i => (m ((c : Thread nD τ).loc main_arg4) : Vec Ideal S64x4096 .f32) (ix2 r i)) o i := by
  rw [V3_v1_eq m c]
  refine (final0_apply' (V1 m) c o i).trans ?_
  unfold mergedAt Cert.Spec.folded
  rw [V1_arg1 m c, V1_arg2 m c, V1_arg4 m c]
  refine congrArg _ (Finset.sum_congr rfl fun r _ => ?_)
  rw [V1_v0_apply m c r]

/-- The last buffer of the fold at the result reference is `kerBuf` of the launch contents. -/
theorem W5_v5_eq (c : Dev nD) :
    (W5 m c (Proc.devRef .tc main_v5) : Vec Ideal S8x1024x4096 .f32)
      = kerBuf (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  funext j
  obtain ⟨b, p, o, rfl⟩ : ∃ (b : Fin 8) (p : Fin 1024) (o : Fin 4096), j = ix3 b p o := ⟨j 0, j 1, j 2, eq_ix3 j⟩
  rw [W5_v5_apply m c b p o]
  refine (final1_apply' (V3 m) c _ o).trans ?_
  unfold prodAt kerBuf Cert.Spec.ker
  refine congrArg₂ (· + ·) (Finset.sum_congr rfl fun i _ => ?_) (V3_v3_apply m c o)
  exact congrArg₂ (· * ·) (V3_v2_apply m c b p i) (V3_v1_apply m c o i)

end Cert.KernelIdeal.Hand

end
-- ==== Proof.KI.MergeBody.lean ====
/-
  Region 0's body: at every grid point the merge kernel, run on the five windows' current staging buffers,
  reads the four input blocks, leaves them as they were, and leaves in the output's buffer the block of
  W + (U · diag S) · V  computed from them.
-/
import proofs.«111724_j9663676416607_2_alg».proof.Proof.KI.Data
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when a region is entered
variable (V : (c : Dev nD) → (b : Ref sig .tc) → Buf (Elt F) ((c : Thread nD τ).loc b))

/-! ## Each input's current staging buffer holds its block -/

/-- Input window 0's current staging buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- Input window 1's, fetched there or not (its block index moves every fourth point). -/
theorem before0_1 (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- Input window 2's (fetched at the first point only). -/
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-- Input window 3's. -/
theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)

/-! ## Whole-buffer accesses -/

/-- The zero offsets of a whole-buffer access, as the constant function. -/
private theorem zeros2 : (![0, 0] : Fin 2 → ℕ) = fun _ => 0 := by
  funext a; fin_cases a <;> rfl

/-- A load of the whole buffer reads its contents. -/
private theorem readAt_whole {Val : EltTy → Type} {sg : RefSig} {κ : Kind} {sp : Space} {S : Shape} {e : EltTy}
    (v : View sg κ sp S e) (f : v.ty.Contents Val) (off : Fin S.rank → ℕ) (h : off = fun _ => 0)
    (inb : ∀ a, off a + S.size a ≤ S.size a) :
    v.readAt Val (Rect.unit off S.size inb).toLoadRect f = v.read Val f := by
  subst h
  rw [View.readAt_eq_ld]
  exact View.ld_unit_zero rfl inb _

/-- One store of the whole buffer, over any contents, reads back as its payload. -/
private theorem read_write_whole {Val : EltTy → Type} [∀ e, Nonempty (Val e)] {sg : RefSig} {κ : Kind} {sp : Space} {S : Shape}
    {e : EltTy} (v : View sg κ sp S e) (f : v.ty.Contents Val) (off : Fin S.rank → ℕ) (h : off = fun _ => 0)
    (inb : ∀ a, off a + S.size a ≤ S.size a) (w : (Rect.unit off S.size inb).shape.Idx → Val e) :
    v.read Val (v.writes Val f [(⟨Rect.unit off S.size inb, w⟩ : View.Piece Val S e)]) = w := by
  subst h
  rw [View.read_writes_eq_canon v f _ (fun y => ⟨_, List.mem_singleton_self _, View.mem_set_unit_zero rfl inb y⟩),
    View.canon_unit_zero rfl inb w]

/-! ## The body's triple -/

set_option maxHeartbeats 1000000 in
/-- The merge kernel on whole staging memrefs, the four inputs' at read contents `x0 … x3` and the output's at
    anything, runs to the continuation holding the inputs' as they were and the output's at the block computed
    from them: its one store is the whole buffer, so what the buffer read before does not matter. -/
theorem sound_kernel0 (c : Dev nD) (E : Set ℕ) (i : grid0.Coords)
    (arg2 : Memref sig .tc .vmem S1024x1024 .f32) (harg2 : arg2.IsWhole)
    (arg3 : Memref sig .tc .vmem S1024x64 .f32) (harg3 : arg3.IsWhole)
    (arg4 : Memref sig .tc .vmem S1x64 .f32) (harg4 : arg4.IsWhole)
    (arg5 : Memref sig .tc .vmem S64x1024 .f32) (harg5 : arg5.IsWhole)
    (arg6 : Memref sig .tc .vmem S1024x1024 .bf16) (harg6 : arg6.IsWhole)
    (x0 : Vec F S1024x1024 .f32) (x1 : Vec F S1024x64 .f32) (x2 : Vec F S1x64 .f32) (x3 : Vec F S64x1024 .f32)
    (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (k0_pay1 x1 x2 x3 x0)) -∗ K ⟨⟩))
      ⊢ wp frame (wpE (defs₀ (F := F)) Variants.none c none) E
          (cc0__merge_kernel i arg2 harg2 arg3 harg3 arg4 harg4 arg5 harg5 arg6 harg6) K := by
  simp only [cc0__merge_kernel_eq_skeleton]; unfold cc0__merge_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (read_write_whole arg6.view f4 _ zeros2 _ _).trans ?_
  rw [readAt_whole arg3.view f1 _ zeros2, readAt_whole arg4.view f2 _ zeros2,
    readAt_whole arg5.view f3 _ zeros2, readAt_whole arg2.view f0 _ zeros2]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the kernel's triple applies; the invariant
    and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- Region 0's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.MatmulRuns.lean ====
/-
  The matmul kernel's body, run once for each way its two conditionals can go.

  Region 1's body zeroes the scratch when a run over k begins (k = 0), adds the product of the point's two blocks
  to the scratch at every point, and when the run ends (k = 15) stores the scratch plus the bias row into the
  output window. Every load and store is of a whole buffer, so each case's triple is stated with the explicit
  contents the body leaves: the scratch at the product added to what it held (to zero, where the run begins), the
  output window at the finished sum plus the bias where the run ends and untouched elsewhere, the inputs as found.
-/
import proofs.«111724_j9663676416607_2_alg».proof.Proof.KI.Data
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two conditionals -/

/-- The all-zero offsets of a rank-two rectangle, however spelt. -/
private theorem hz : (![0, 0] : Fin 2 → Nat) = fun _ => 0 := funext fun a => by fin_cases a <;> rfl

/-- The first conditional's test (a run over k begins: k = 0), from the grid coordinates. -/
abbrev cond1 (i : grid1.Coords) : Prop :=
  (Scalar.cmpi .ne (Scalar.extui (Scalar.cmpi .eq (BitVec.ofNat 32 (i 2).val) 0#32)) 0#32) = 1#1
/-- It holds at the points ≡ 0 (mod 16): decided over the grid. -/
theorem hcond1 : ∀ t : Fin cfg1.N, cond1 (grid1.coords t) ↔ t.val % 16 = 0 :=
  (by decide +kernel : ∀ t : Fin grid1.N, cond1 (grid1.coords t) ↔ t.val % 16 = 0)
/-- The second conditional's test (a run over k ends: k = 15). -/
abbrev cond2 (i : grid1.Coords) : Prop := k1_cond2 i = 1#1
/-- It holds at the points ≡ 15 (mod 16): decided over the grid. -/
theorem hcond2 : ∀ t : Fin cfg1.N, cond2 (grid1.coords t) ↔ t.val % 16 = 15 :=
  (by decide +kernel : ∀ t : Fin grid1.N, cond2 (grid1.coords t) ↔ t.val % 16 = 15)

/-! ## Whole-buffer loads and stores -/

/-- What a buffer reads after a list of whole-buffer stores: the last store's payload (the list is last first). -/
private theorem read_store_last {κ : Kind} {sp : Space} (v : View sig κ sp S1024x2048 .f32) (f : v.ty.Contents (Elt F))
    (w : Vec F S1024x2048 .f32) (L : List (View.Piece (Elt F) S1024x2048 .f32)) :
    v.read (Elt F) (v.writes (Elt F) f
      (⟨Rect.unit (s := S1024x2048) ![0, 0] S1024x2048.size inb_S1024x2048_S1024x2048_0_0, w⟩ :: L)) = w := by
  rw [View.read_writes_eq_canon _ _ _ (fun y => ⟨_, List.Mem.head _, View.mem_set_unit_zero hz inb_S1024x2048_S1024x2048_0_0 y⟩),
    View.canon_cons_unit_zero hz]

/-- A whole-buffer load after one whole-buffer store reads the stored payload. -/
private theorem readCov_store {κ : Kind} {sp : Space} (v : View sig κ sp S1024x2048 .f32) (w : Vec F S1024x2048 .f32) :
    v.readCov [(⟨Rect.unit (s := S1024x2048) ![0, 0] S1024x2048.size inb_S1024x2048_S1024x2048_0_0, w⟩ : View.Piece (Elt F) S1024x2048 .f32)]
      (Rect.unit (s := S1024x2048) ![0, 0] S1024x2048.size inb_S1024x2048_S1024x2048_0_0).toLoadRect = w :=
  View.readCov_unit_zero v hz _ w

/-- A whole-buffer load reads the buffer's contents (the three input shapes and the accumulator's). -/
private theorem readAt_whole0 {κ : Kind} {sp : Space} (v : View sig κ sp S1024x256 .f32) (f : v.ty.Contents (Elt F)) :
    v.readAt (Elt F) (Rect.unit (s := S1024x256) ![0, 0] S1024x256.size inb_S1024x256_S1024x256_0_0).toLoadRect f = v.read (Elt F) f :=
  View.ld_unit_zero hz _ _
private theorem readAt_whole1 {κ : Kind} {sp : Space} (v : View sig κ sp S2048x256 .bf16) (f : v.ty.Contents (Elt F)) :
    v.readAt (Elt F) (Rect.unit (s := S2048x256) ![0, 0] S2048x256.size inb_S2048x256_S2048x256_0_0).toLoadRect f = v.read (Elt F) f :=
  View.ld_unit_zero hz _ _
private theorem readAt_whole2 {κ : Kind} {sp : Space} (v : View sig κ sp S1x2048 .f32) (f : v.ty.Contents (Elt F)) :
    v.readAt (Elt F) (Rect.unit (s := S1x2048) ![0, 0] S1x2048.size inb_S1x2048_S1x2048_0_0).toLoadRect f = v.read (Elt F) f :=
  View.ld_unit_zero hz _ _
private theorem readAt_whole3 {κ : Kind} {sp : Space} (v : View sig κ sp S1024x2048 .f32) (f : v.ty.Contents (Elt F)) :
    v.readAt (Elt F) (Rect.unit (s := S1024x2048) ![0, 0] S1024x2048.size inb_S1024x2048_S1024x2048_0_0).toLoadRect f = v.read (Elt F) f :=
  View.ld_unit_zero hz _ _

/-! ## The body's triple, case by case -/

set_option maxHeartbeats 1000000 in
/-- A run over k begins and does not end (k = 0): the scratch, whatever it held, is zeroed and then holds the
    product of the two blocks added to zero; the output window is not stored. -/
theorem run_A (c : Dev nD) (E : Set ℕ) (i : grid1.Coords)
    (arg3 : Memref sig .tc .vmem S1024x256 .f32) (harg3 : arg3.IsWhole)
    (arg4 : Memref sig .tc .vmem S2048x256 .bf16) (harg4 : arg4.IsWhole)
    (arg5 : Memref sig .tc .vmem S1x2048 .f32) (harg5 : arg5.IsWhole)
    (arg6 : Memref sig .tc .vmem S1024x2048 .f32) (harg6 : arg6.IsWhole)
    (arg7 : Memref sig .tc .vmem S1024x2048 .f32) (harg7 : arg7.IsWhole)
    (hc1 : cond1 i) (hc2 : ¬cond2 i)
    (x0 : Vec F S1024x256 .f32) (x1 : Vec F S2048x256 .bf16) (x2 : Vec F S1x2048 .f32)
    (xi : Vec F S1024x2048 .f32) (xs : Vec F S1024x2048 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare xi
        ∗ owns (c : Thread nD τ) arg7 fullShare xs
        ∗ (iprop(owns (c : Thread nD τ) arg3 fullShare x0 ∗ owns (c : Thread nD τ) arg4 fullShare x1
            ∗ owns (c : Thread nD τ) arg5 fullShare x2 ∗ owns (c : Thread nD τ) arg6 fullShare (xi)
            ∗ owns (c : Thread nD τ) arg7 fullShare (k1_pay2 x0 x1 (k1_pay1 (F := F)))) -∗ K ⟨⟩))
      ⊢ wp frame (wpE (defs₀ (F := F)) Variants.none c none) E
          (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  sl_unfold_run_names
  rw [read_store_last, readAt_whole0, readAt_whole1, readCov_store]

set_option maxHeartbeats 1000000 in
/-- Inside a run (0 < k < 15): the scratch holds the product added to what it held; the output window is not
    stored. -/
theorem run_B (c : Dev nD) (E : Set ℕ) (i : grid1.Coords)
    (arg3 : Memref sig .tc .vmem S1024x256 .f32) (harg3 : arg3.IsWhole)
    (arg4 : Memref sig .tc .vmem S2048x256 .bf16) (harg4 : arg4.IsWhole)
    (arg5 : Memref sig .tc .vmem S1x2048 .f32) (harg5 : arg5.IsWhole)
    (arg6 : Memref sig .tc .vmem S1024x2048 .f32) (harg6 : arg6.IsWhole)
    (arg7 : Memref sig .tc .vmem S1024x2048 .f32) (harg7 : arg7.IsWhole)
    (hc1 : ¬cond1 i) (hc2 : ¬cond2 i)
    (x0 : Vec F S1024x256 .f32) (x1 : Vec F S2048x256 .bf16) (x2 : Vec F S1x2048 .f32)
    (xi : Vec F S1024x2048 .f32) (xs : Vec F S1024x2048 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare xi
        ∗ owns (c : Thread nD τ) arg7 fullShare xs
        ∗ (iprop(owns (c : Thread nD τ) arg3 fullShare x0 ∗ owns (c : Thread nD τ) arg4 fullShare x1
            ∗ owns (c : Thread nD τ) arg5 fullShare x2 ∗ owns (c : Thread nD τ) arg6 fullShare (xi)
            ∗ owns (c : Thread nD τ) arg7 fullShare (k1_pay2 x0 x1 xs)) -∗ K ⟨⟩))
      ⊢ wp frame (wpE (defs₀ (F := F)) Variants.none c none) E
          (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact HS
  ipureintro
  rw [read_store_last, readAt_whole0, readAt_whole1, readAt_whole3]

set_option maxHeartbeats 1000000 in
/-- A run over k ends (k = 15): the scratch holds the product added to what it held, and the output window that
    sum plus the bias row broadcast along the rows. -/
theorem run_C (c : Dev nD) (E : Set ℕ) (i : grid1.Coords)
    (arg3 : Memref sig .tc .vmem S1024x256 .f32) (harg3 : arg3.IsWhole)
    (arg4 : Memref sig .tc .vmem S2048x256 .bf16) (harg4 : arg4.IsWhole)
    (arg5 : Memref sig .tc .vmem S1x2048 .f32) (harg5 : arg5.IsWhole)
    (arg6 : Memref sig .tc .vmem S1024x2048 .f32) (harg6 : arg6.IsWhole)
    (arg7 : Memref sig .tc .vmem S1024x2048 .f32) (harg7 : arg7.IsWhole)
    (hc1 : ¬cond1 i) (hc2 : cond2 i)
    (x0 : Vec F S1024x256 .f32) (x1 : Vec F S2048x256 .bf16) (x2 : Vec F S1x2048 .f32)
    (xi : Vec F S1024x2048 .f32) (xs : Vec F S1024x2048 .f32) (K : PUnit → sProp 𝕄) :
    iprop(owns (c : Thread nD τ) arg3 fullShare x0 ∗ owns (c : Thread nD τ) arg4 fullShare x1
        ∗ owns (c : Thread nD τ) arg5 fullShare x2 ∗ owns (c : Thread nD τ) arg6 fullShare xi
        ∗ owns (c : Thread nD τ) arg7 fullShare xs
        ∗ (iprop(owns (c : Thread nD τ) arg3 fullShare x0 ∗ owns (c : Thread nD τ) arg4 fullShare x1
            ∗ owns (c : Thread nD τ) arg5 fullShare x2 ∗ owns (c : Thread nD τ) arg6 fullShare (k1_pay3 (k1_pay2 x0 x1 xs) x2)
            ∗ owns (c : Thread nD τ) arg7 fullShare (k1_pay2 x0 x1 xs)) -∗ K ⟨⟩))
      ⊢ wp frame (wpE (defs₀ (F := F)) Variants.none c none) E
          (cc1__matmul_kernel i arg3 harg3 arg4 harg4 arg5 harg5 arg6 harg6 arg7 harg7) K := by
  simp only [cc1__matmul_kernel_eq_skeleton]; unfold cc1__matmul_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  subst hf0; subst hf1; subst hf2; subst hf3; subst hfs
  sl_exec (disch := first | exact hc1 | exact hc2)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    sl_unfold_run_names
    rw [read_store_last, readAt_whole2, readCov_store, readAt_whole0, readAt_whole1, readAt_whole3]
  iexists _; isplitr
  swap; · iexact HS
  ipureintro
  sl_unfold_run_names
  rw [read_store_last, readAt_whole0, readAt_whole1, readAt_whole3]

end Cert.KernelIdeal.Hand

end
-- ==== Proof.KI.MatmulBody.lean ====
/-
  Region 1's body obligation: the matmul kernel at every point of its grid.

  The grid is (i, j, k) with k innermost, so the position t of a point has k = t mod 16. The scratch carries the
  partial sum of  X · Wᵀ  over the first k + 1 column blocks from point to point: the invariant before point t + 1
  holds it at `acc t`. At a point with k = 0 the body zeroes the scratch first, so `acc t` is the point's product
  added to zero whatever the scratch held; at the other points it is the product added to `acc (t - 1)`. At k = 15
  the body stores the finished sum plus the bias row into the output window; at the other points the output window
  is idle and is handed back as it was found. Before the first point the invariant is what the region is handed,
  with the scratch at anything; after the last point the finished sum is forgotten again.
-/
import proofs.«111724_j9663676416607_2_alg».proof.Proof.KI.MatmulRuns

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Where the windows are idle -/

/-- The inputs are never idle. -/
theorem liveAt1_0 (t : Fin cfg1.N) : cfg1.idle 0 (grid1.coords t) = false := rfl
theorem liveAt1_1 (t : Fin cfg1.N) : cfg1.idle 1 (grid1.coords t) = false := rfl
theorem liveAt1_2 (t : Fin cfg1.N) : cfg1.idle 2 (grid1.coords t) = false := rfl
/-- Away from the end of a run over k the output window is idle: the body stores nothing into it, -/
theorem idleAt1_3 : ∀ t : Fin cfg1.N, ¬cond2 (grid1.coords t) → cfg1.idle 3 (grid1.coords t) = true := by decide +kernel
/-- and the pipeline does not write its block back. -/
theorem noFlush1_3 : ∀ t : Fin cfg1.N, ¬cond2 (grid1.coords t) → (cfg1.win 3).flush t = false := by decide +kernel
/-- At the end of a run the output window is live. -/
theorem liveAt1_3 : ∀ t : Fin cfg1.N, cond2 (grid1.coords t) → cfg1.idle 3 (grid1.coords t) = false := by decide +kernel

/-! ## The staging memrefs the body is called with -/

abbrev ms1_0 (t : Fin cfg1.N) : Memref sig .tc .vmem S1024x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x256 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .f32 := win1_3.stage (cfg1.slots t 3)
abbrev hs1_3 (t : Fin cfg1.N) : (ms1_3 t).IsWhole := hstage1_3 ((cfg1.slots t 3).cast nbuf1_3)

/-! ## Each input's current staging buffer holds its block -/

/-- Input window 0's current staging buffer holds its block at every point. -/
theorem before1_0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
/-- Input window 1's. -/
theorem before1_1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
/-- Input window 2's, fetched there or not (its block index moves when a run over k begins). -/
theorem before1_2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

/-! ## The carried partial sum, point by point -/

/-- Where a run over k begins the partial sum is the point's product added to zero. -/
theorem acc_zero_mod (c : Dev nD) (t : Fin cfg1.N) (h : t.val % 16 = 0) :
    acc V c t.val t.isLt = k1_pay2 (iblk1 V c 0 t) (iblk1 V c 1 t) (k1_pay1 (F := F)) := by
  obtain ⟨n, hn⟩ := t
  cases n with
  | zero => rfl
  | succ n =>
    show k1_pay2 _ _ (if (n + 1) % 16 = 0 then (k1_pay1 (F := F)) else acc V c n _) = _
    rw [if_pos h]

/-- Elsewhere it is the point's product added to what the point before left. -/
theorem acc_pos_mod (c : Dev nD) (t : Fin cfg1.N) (h : t.val % 16 ≠ 0) :
    acc V c t.val t.isLt = k1_pay2 (iblk1 V c 0 t) (iblk1 V c 1 t)
      (acc V c (t.val - 1) (Nat.lt_of_le_of_lt (Nat.sub_le _ _) t.isLt)) := by
  obtain ⟨n, hn⟩ := t
  cases n with
  | zero => exact absurd (Nat.zero_mod _) h
  | succ n =>
    show k1_pay2 _ _ (if (n + 1) % 16 = 0 then (k1_pay1 (F := F)) else acc V c n _) = _
    rw [if_neg h]
    rfl

/-! ## The invariant -/

/-- What the launch hands the region names the scratch among the scoped buffers at anything: -/
theorem PhiA1_elim (c : Dev nD) :
    (Pipeline.ΦA spec1 c : sProp 𝕄)
      ⊢ iprop(restS (F := F) c ∗ (∃ d, owns (c : Thread nD τ) scM fullShare d) ∗ ∃ r, prngReg c r) := by
  unfold Pipeline.ΦA; rw [scopedRest1_eq]; unfold restS; simp only [scM, owns_whole]
  iintro ⟨⟨A0, A1, A2, A3, A4, A5, A6, A7, A8, AS⟩, Hg⟩
  isplitl [A0 A1 A2 A3 A4 A5 A6 A7 A8]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    iexact A8
  isplitl [AS]; · iexact AS
  iexact Hg

/-- and takes it back so. -/
theorem PhiA1_intro (c : Dev nD) :
    iprop(restS (F := F) c ∗ (∃ d, owns (c : Thread nD τ) scM fullShare d) ∗ ∃ r, prngReg c r)
      ⊢ (Pipeline.ΦA spec1 c : sProp 𝕄) := by
  unfold Pipeline.ΦA; rw [scopedRest1_eq]; unfold restS; simp only [scM, owns_whole]
  iintro ⟨⟨A0, A1, A2, A3, A4, A5, A6, A7, A8⟩, AS, Hg⟩
  isplitr [Hg]
  · isplitl [A0]; · iexact A0
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    iexact AS
  iexact Hg

/-- Before any point the invariant holds the scratch at something. -/
theorem PhiS_some (c : Dev nD) (n : ℕ) (h : n ≤ cfg1.N) :
    PhiS V c n h ⊢ iprop(restS (F := F) c ∗ (∃ d, owns (c : Thread nD τ) scM fullShare d) ∗ ∃ r, prngReg c r) := by
  cases n with
  | zero => exact PhiA1_elim c
  | succ n =>
    show iprop(restS (F := F) c ∗ owns (c : Thread nD τ) scM fullShare (acc V c n h) ∗ (∃ r, prngReg c r)) ⊢ _
    iintro ⟨HR, HS, Hg⟩
    isplitl [HR]; · iexact HR
    isplitl [HS]; · iexists _; iexact HS
    iexact Hg

/-- Before a point that is not the first it holds the scratch at the partial sum the point before left. -/
theorem PhiS_pos (c : Dev nD) (n : ℕ) (h : n ≤ cfg1.N) (hz : n ≠ 0) :
    PhiS V c n h = iprop(restS (F := F) c ∗ owns (c : Thread nD τ) scM fullShare (acc V c (n - 1) (by omega)) ∗ (∃ r, prngReg c r)) := by
  cases n with
  | zero => exact absurd rfl hz
  | succ n => rfl

/-! ## The body obligation, at a generic point -/

/-- What the body is called with at point `t`: the invariant, what the core owes, and each window's current
    staging buffer at what it then holds, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t
    ∗ (dat1 V c).leavesExact 2 t ∗ (dat1 V c).leavesExact 3 t)

set_option maxHeartbeats 4000000 in
/-- The body at any point. The inputs' buffers hold their blocks; the point's position in its run over k says which
    of the three cases it is in. Where a run begins the scratch arrives at anything (the launch's, or the run
    before's finished sum) and leaves at the product added to zero; elsewhere it arrives at the partial sum the point
    before left and leaves at the product added to it; where a run ends the output window leaves at that sum plus the
    bias row, and elsewhere it is handed back as found. What the core owes passes through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ
      = iprop(restS (F := F) c ∗ owns (c : Thread nD τ) scM fullShare (acc V c t.val t.isLt) ∗ (∃ r, prngReg c r)) from rfl]
  rw [show (dat1 V c).leavesExact 0 t = owns (c : Thread nD τ) (ms1_0 t) fullShare (iblk1 V c 0 t) from by
        unfold Dat.leavesExact; rw [liveAt1_0 t, after1_0],
    show (dat1 V c).leavesExact 1 t = owns (c : Thread nD τ) (ms1_1 t) fullShare (iblk1 V c 1 t) from by
        unfold Dat.leavesExact; rw [liveAt1_1 t, after1_1],
    show (dat1 V c).leavesExact 2 t = owns (c : Thread nD τ) (ms1_2 t) fullShare (iblk1 V c 2 t) from by
        unfold Dat.leavesExact; rw [liveAt1_2 t, after1_2]]
  by_cases h0 : t.val % 16 = 0
  · have hc1 : cond1 (grid1.coords t) := (hcond1 t).mpr h0
    have hc2 : ¬cond2 (grid1.coords t) := fun h => by have := (hcond2 t).mp h; omega
    have hΦ : (dat1 V c).Φ t.castSucc
        ⊢ iprop(restS (F := F) c ∗ (∃ d, owns (c : Thread nD τ) scM fullShare d) ∗ ∃ r, prngReg c r) :=
      PhiS_some V c _ _
    rw [Dat.leavesExact_idle (dat1 V c) 3 t (idleAt1_3 t hc2) (noFlush1_3 t hc2), acc_zero_mod V c t h0]
    iintro ⟨HΦ, Ho, ⟨%d0, H0⟩, ⟨%d1, H1⟩, ⟨%d2, H2⟩, ⟨%d3, H3⟩⟩
    ihave HΦ' := hΦ $$ HΦ
    icases HΦ' with ⟨HR, ⟨%ds, HS⟩, Hg⟩
    iapply (run_A c Set.univ (grid1.coords t) _ _ _ _ _ _ _ _ _ _ hc1 hc2 (iblk1 V c 0 t) (iblk1 V c 1 t)
      (iblk1 V c 2 t) ((dat1 V c).before 3 t d3) ds _)
    isplitl [H0]; · iexact H0
    isplitl [H1]; · iexact H1
    isplitl [H2]; · iexact H2
    isplitl [H3]; · iexact H3
    isplitl [HS]; · iexact HS
    iintro ⟨H0, H1, H2, H3, HS⟩
    isplitl [HR HS Hg]
    · isplitl [HR]; · iexact HR
      isplitl [HS]; · iexact HS
      iexact Hg
    isplitl [Ho]; · iexact Ho
    isplitl [H0]; · iexact H0
    isplitl [H1]; · iexact H1
    isplitl [H2]; · iexact H2
    iexists d3; iexact H3
  · have hc1 : ¬cond1 (grid1.coords t) := fun h => h0 ((hcond1 t).mp h)
    have hne : t.val ≠ 0 := fun e => h0 (by rw [e])
    rw [acc_pos_mod V c t h0]
    rw [show (dat1 V c).Φ t.castSucc = PhiS V c t.val (Nat.le_of_lt t.isLt) from rfl, PhiS_pos V c _ _ hne]
    by_cases h15 : t.val % 16 = 15
    · have hc2 : cond2 (grid1.coords t) := (hcond2 t).mpr h15
      rw [show (dat1 V c).leavesExact 3 t = owns (c : Thread nD τ) (ms1_3 t) fullShare
            (k1_pay3 (acc V c t.val t.isLt) (iblk1 V c 2 t)) from by
          unfold Dat.leavesExact; rw [liveAt1_3 t hc2, after1_3]]
      rw [acc_pos_mod V c t h0]
      iintro ⟨⟨HR, HS, Hg⟩, Ho, ⟨%d0, H0⟩, ⟨%d1, H1⟩, ⟨%d2, H2⟩, ⟨%d3, H3⟩⟩
      iapply (run_C c Set.univ (grid1.coords t) _ _ _ _ _ _ _ _ _ _ hc1 hc2 (iblk1 V c 0 t) (iblk1 V c 1 t)
        (iblk1 V c 2 t) ((dat1 V c).before 3 t d3) _ _)
      isplitl [H0]; · iexact H0
      isplitl [H1]; · iexact H1
      isplitl [H2]; · iexact H2
      isplitl [H3]; · iexact H3
      isplitl [HS]; · iexact HS
      iintro ⟨H0, H1, H2, H3, HS⟩
      isplitl [HR HS Hg]
      · isplitl [HR]; · iexact HR
        isplitl [HS]; · iexact HS
        iexact Hg
      isplitl [Ho]; · iexact Ho
      isplitl [H0]; · iexact H0
      isplitl [H1]; · iexact H1
      isplitl [H2]; · iexact H2
      iexact H3
    · have hc2 : ¬cond2 (grid1.coords t) := fun h => h15 ((hcond2 t).mp h)
      rw [Dat.leavesExact_idle (dat1 V c) 3 t (idleAt1_3 t hc2) (noFlush1_3 t hc2)]
      iintro ⟨⟨HR, HS, Hg⟩, Ho, ⟨%d0, H0⟩, ⟨%d1, H1⟩, ⟨%d2, H2⟩, ⟨%d3, H3⟩⟩
      iapply (run_B c Set.univ (grid1.coords t) _ _ _ _ _ _ _ _ _ _ hc1 hc2 (iblk1 V c 0 t) (iblk1 V c 1 t)
        (iblk1 V c 2 t) ((dat1 V c).before 3 t d3) _ _)
      isplitl [H0]; · iexact H0
      isplitl [H1]; · iexact H1
      isplitl [H2]; · iexact H2
      isplitl [H3]; · iexact H3
      isplitl [HS]; · iexact HS
      iintro ⟨H0, H1, H2, H3, HS⟩
      isplitl [HR HS Hg]
      · isplitl [HR]; · iexact HR
        isplitl [HS]; · iexact HS
        iexact Hg
      isplitl [Ho]; · iexact Ho
      isplitl [H0]; · iexact H0
      isplitl [H1]; · iexact H1
      isplitl [H2]; · iexact H2
      iexists d3; iexact H3

/-- The library's body obligation, at every point. -/
theorem body_obligation1 (c : Dev nD) :
    BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 (F := F) V c).Φ 0 := by
  show (Pipeline.ΦA spec1 c : sProp 𝕄) ⊢ Pipeline.ΦA spec1 c
  exact Idealize.SL.BI.Entails.refl _

/-- After the last point the invariant gives it back: the scratch's finished sum is forgotten. -/
theorem hout1 (c : Dev nD) : (dat1 (F := F) V c).Φ (Fin.last cfg1.N) ⊢ (Pipeline.ΦA spec1 c : sProp 𝕄) := by
  show PhiS V c (Fin.last cfg1.N).val (Nat.le_of_lt_succ (Fin.last cfg1.N).isLt) ⊢ _
  exact (PhiS_some V c _ _).trans (PhiA1_intro c)

end Cert.KernelIdeal.Hand

end
-- ==== Proof.KI.RunValue.lean ====
/-
  The idealized kernel's run with its result named: every weakly fair execution ends with the result array at the
  folded form of the arguments (`kerBuf`) and the arguments as launched.
-/
import proofs.«111724_j9663676416607_2_alg».proof.Proof.KI.Value
import proofs.«111724_j9663676416607_2_alg».proof.Proof.KI.MergeBody
import proofs.«111724_j9663676416607_2_alg».proof.Proof.KI.MatmulBody

set_option maxRecDepth 16384

noncomputable section

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ) (ρ : Dev nD → PrngReg)

/-- The idealized kernel runs to the end with the result at `kerBuf` of the arguments and the arguments unchanged. -/
theorem run_value : θ_run (defs (F := Ideal)) (onTc (τ := τ) (main (F := Ideal))) ⟨m, fun _ => 0, ρ⟩ (fun r => ∀ c : Dev nD,
      r.2.mem ((c.tc : Thread nD τ).loc main_v5) = kerBuf (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_v5 (by decide))).trans (W5_v5_eq m c),
     (h c _ (mem_uc main_arg0 (by decide))).trans (W5_main_arg0 m c),
     (h c _ (mem_uc main_arg1 (by decide))).trans (W5_main_arg1 m c),
     (h c _ (mem_uc main_arg2 (by decide))).trans (W5_main_arg2 m c),
     (h c _ (mem_uc main_arg3 (by decide))).trans (W5_main_arg3 m c),
     (h c _ (mem_uc main_arg4 (by decide))).trans (W5_main_arg4 m c),
     (h c _ (mem_uc main_arg5 (by decide))).trans (W5_main_arg5 m c)⟩)
    (run_all m ρ (fun c => body_obligation0 (V1 m) c) (fun c => body_obligation1 (V3 m) c) (fun c => hin1 (V3 m) c) (fun c => hout1 (V3 m) c))

end Cert.KernelIdeal.Hand

end
-- ==== Proof.RefValue.lean ====
/-
  The reference's result, read at an index.

  The reference composes three contractions, two broadcasts, an elementwise product and two sums.
  Read entry by entry at the ideal instance it is the closed form
      x·Wᵀ + ((x·Vᵀ)·s)·Uᵀ + bias
  of the six argument arrays (`Cert.Spec.ref`), and its run ends with the result array at that
  closed form and the arguments unchanged.
-/
import proofs.«111724_j9663676416607_2_alg».proof.Defs
import proofs.«111724_j9663676416607_2_alg».proof.Proof.Gen.ReferenceIdeal.Run
import proofs.«111724_j9663676416607_2_alg».proof.Proof.Gen.ReferenceIdeal.Read
import proofs.«111724_j9663676416607_2_alg».proof.Proof.Spec

noncomputable section

namespace Cert.ReferenceIdeal.RefValue

open Idealize.ShloMosaic Idealize.ShloMosaic.TcCoe Idealize.SL.Sem
open Cert.ReferenceIdeal Cert.ReferenceIdeal.Gen Cert.ReferenceIdeal.Read

/-- The reference's closed form, entry by entry, of the six argument arrays:
    entry (b, p, o) is Σᵢ x[b,p,i]·W[o,i] + Σᵣ ((Σᵢ x[b,p,i]·V[r,i])·s[r])·U[o,r] + bias[o]. -/
def refBuf (a0 : FVec Ideal S8x1024x4096 .f32) (a1 : FVec Ideal S4096x4096 .f32)
    (a2 : FVec Ideal S4096x64 .f32) (a3 : FVec Ideal S64 .f32) (a4 : FVec Ideal S64x4096 .f32)
    (a5 : FVec Ideal S4096 .f32) : FVec Ideal S8x1024x4096 .f32 :=
  fun j => Cert.Spec.ref (fun b p i => a0 (ValueIdx.ix3 b p i)) (fun o i => a1 (ValueIdx.ix2 o i))
    (fun o r => a2 (ValueIdx.ix2 o r)) (fun r => a3 (ValueIdx.ix1 r)) (fun r i => a4 (ValueIdx.ix2 r i))
    (fun o => a5 (ValueIdx.ix1 o)) (j 0) (j 1) (j 2)

/-- The composed stages of the reference, read at an index, are the closed form: each contraction is
    its sum of products at the evident indices, each broadcast reads its operand at the last
    coordinate, and the sums and the product are the extended reals' own. -/
theorem result_eq (x0 : FVec Ideal S8x1024x4096 .f32) (x1 : FVec Ideal S4096x4096 .f32)
    (x2 : FVec Ideal S4096x64 .f32) (x3 : FVec Ideal S64 .f32) (x4 : FVec Ideal S64x4096 .f32)
    (x5 : FVec Ideal S4096 .f32) :
    val_main_v9 (F := Ideal) x0 x1 x2 x3 x4 x5 = refBuf x0 x1 x2 x3 x4 x5 := by
  funext j
  obtain ⟨b, p, o, rfl⟩ : ∃ (b : Fin 8) (p : Fin 1024) (o : Fin 4096), j = ValueIdx.ix3 b p o :=
    ⟨j 0, j 1, j 2, ValueIdx.eq_ix3 j⟩
  rw [val_main_v9_apply, val_main_v6_apply, val_main_v0_apply, val_main_v5_apply, val_main_v8_apply,
    val_main_v7_apply]
  simp only [val_main_v4_apply, val_main_v1_apply, val_main_v3_apply, val_main_v2_apply]
  have e0l : ∀ k : Fin 4096, lidx_main_v0 (ValueIdx.ix3 b p o) k = ValueIdx.ix3 b p k := fun k =>
    funext fun a => match a with | ⟨0, _⟩ => rfl | ⟨1, _⟩ => rfl | ⟨2, _⟩ => rfl
  have e0r : ∀ k : Fin 4096, ridx_main_v0 (ValueIdx.ix3 b p o) k = ValueIdx.ix2 o k := fun k =>
    funext fun a => match a with | ⟨0, _⟩ => rfl | ⟨1, _⟩ => rfl
  have e1l : ∀ (r : Fin 64) (k : Fin 4096),
      lidx_main_v1 (lidx_main_v5 (ValueIdx.ix3 b p o) r) k = ValueIdx.ix3 b p k := fun r k =>
    funext fun a => match a with | ⟨0, _⟩ => rfl | ⟨1, _⟩ => rfl | ⟨2, _⟩ => rfl
  have e1r : ∀ (r : Fin 64) (k : Fin 4096),
      ridx_main_v1 (lidx_main_v5 (ValueIdx.ix3 b p o) r) k = ValueIdx.ix2 r k := fun r k =>
    funext fun a => match a with | ⟨0, _⟩ => rfl | ⟨1, _⟩ => rfl
  have e3 : ∀ r : Fin 64,
      idx_main_v2 (idx_main_v3 (lidx_main_v5 (ValueIdx.ix3 b p o) r)) = ValueIdx.ix1 r := fun r =>
    funext fun a => match a with | ⟨0, _⟩ => rfl
  have e5r : ∀ r : Fin 64, ridx_main_v5 (ValueIdx.ix3 b p o) r = ValueIdx.ix2 o r := fun r =>
    funext fun a => match a with | ⟨0, _⟩ => rfl | ⟨1, _⟩ => rfl
  have e7 : idx_main_v7 (idx_main_v8 (ValueIdx.ix3 b p o)) = ValueIdx.ix1 o :=
    funext fun a => match a with | ⟨0, _⟩ => rfl
  simp only [e0l, e0r, e1l, e1r, e3, e5r, e7, Ideal.addf_def, Ideal.mulf_def]
  rfl

/-- Every weakly fair execution of the reference terminates with its result array at the closed
    form of the arguments' launch contents, and the six arguments unchanged. -/
theorem run (m' : (ℓ : Loc nD τ sig) → Buf (Elt Ideal) ℓ) (ρ' : Dev nD → PrngReg) :
    θ_run (Cert.ReferenceIdeal.defs (F := Ideal)) (onTc (τ := τ) (Cert.ReferenceIdeal.main (F := Ideal)))
      ⟨m', fun _ => 0, ρ'⟩ (fun r => ∀ c : Dev nD,
      r.2.mem ((c.tc : Thread nD τ).loc main_v9)
        = refBuf (m' ((c.tc : Thread nD τ).loc main_arg0)) (m' ((c.tc : Thread nD τ).loc main_arg1))
            (m' ((c.tc : Thread nD τ).loc main_arg2)) (m' ((c.tc : Thread nD τ).loc main_arg3))
            (m' ((c.tc : Thread nD τ).loc main_arg4)) (m' ((c.tc : Thread nD τ).loc main_arg5))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)) :=
  (θ_run (Cert.ReferenceIdeal.defs (F := Ideal)) _ _).mono
    (fun _ h c => ⟨(h c).1.trans ((val_main_v9_eq _ _ _ _ _ _).trans (result_eq _ _ _ _ _ _)), (h c).2⟩)
    (Cert.ReferenceIdeal.Value.run (F := Ideal) m' ρ')

end Cert.ReferenceIdeal.RefValue

end
-- ==== Proof.Bridge.lean ====
/-
  On arrays of real numbers the reference's result array is the kernel's: entry by entry
  (Σ_i x·W + Σ_r ((Σ_i x·V)·S)·U) + bias  =  Σ_i x·(W + Σ_r (U·S)·V) + bias,
  by distributing x over the inner sum and exchanging the two finite sums (`Spec.ker_eq_ref`).
-/
import proofs.«111724_j9663676416607_2_alg».proof.Proof.KI.KerBuf
import proofs.«111724_j9663676416607_2_alg».proof.Proof.RefValue

noncomputable section

namespace Cert.Bridge

open Idealize.ShloMosaic Idealize.ShloMosaic.ValueIdx

theorem refBuf_eq_kerBuf (a0 : Vec Ideal Cert.KernelIdeal.S8x1024x4096 .f32) (a1 : Vec Ideal Cert.KernelIdeal.S4096x4096 .f32)
    (a2 : Vec Ideal Cert.KernelIdeal.S4096x64 .f32) (a3 : Vec Ideal Cert.KernelIdeal.S64 .f32) (a4 : Vec Ideal Cert.KernelIdeal.S64x4096 .f32)
    (a5 : Vec Ideal Cert.KernelIdeal.S4096 .f32)
    (h0 : ∀ j, ∃ a : ℝ, a0 j = (a : EReal)) (h1 : ∀ j, ∃ a : ℝ, a1 j = (a : EReal)) (h2 : ∀ j, ∃ a : ℝ, a2 j = (a : EReal))
    (h3 : ∀ j, ∃ a : ℝ, a3 j = (a : EReal)) (h4 : ∀ j, ∃ a : ℝ, a4 j = (a : EReal)) :
    Cert.ReferenceIdeal.RefValue.refBuf a0 a1 a2 a3 a4 a5 = Cert.KernelIdeal.Hand.kerBuf a0 a1 a2 a3 a4 a5 := by
  funext j
  exact (Cert.Spec.ker_eq_ref _ _ _ _ _ _ (fun b p i => h0 _) (fun o i => h1 _) (fun o r => h2 _) (fun r => h3 _)
    (fun r i => h4 _) _ _ _).symm

end Cert.Bridge

end
-- ==== Proof.LibRealEntry.lean ====
/-
  An extended real whose absolute value is below +∞ is a real number.

  The test "|x| < +∞" on the extended reals, with the absolute value taken as `max x (−x)` and +∞ spelt as the
  single-precision pattern with all exponent bits set and no fraction bits, holds exactly of the real numbers: at `⊤`
  and at `⊥` the absolute value is `⊤`, which is not below itself.
-/
import Idealize.ShloMosaic.PureOps.Ideal

noncomputable section

namespace Cert.LibRealEntry

open Idealize.ShloMosaic

/-- The single-precision pattern with all exponent bits set and no fraction denotes +∞. -/
theorem ofBits_inf : Ideal.ofBits .f32 0x7F800000#32 = ⊤ := by
  simp [Ideal.ofBits, Ideal.ieee]

/-- An extended real whose absolute value compares below that pattern is a real number. -/
theorem real_of_abs_lt : ∀ x : EReal, Ideal.cmp .olt (max x (-x)) (Ideal.ofBits .f32 0x7F800000#32) = 1#1 →
    ∃ r : ℝ, x = (r : EReal) := by
  intro x
  rw [ofBits_inf]
  induction x using EReal.rec
  · intro h; simp [Ideal.cmp] at h
  · intro _; exact ⟨_, rfl⟩
  · intro h; simp [Ideal.cmp] at h

end Cert.LibRealEntry

end
-- ==== Proof.Finite.lean ====
/-
  Finiteness of the inputs.

  The precondition is the conjunction, over the six argument arrays, of "every entry has absolute
  value below +∞".  Read at the ideal instance, where an entry is an extended real, it says of each
  of the first five arrays that every entry is a real number.
-/
import proofs.«111724_j9663676416607_2_alg».proof.Defs
import proofs.«111724_j9663676416607_2_alg».proof.Proof.Gen.Pre_finite_inputs
import proofs.«111724_j9663676416607_2_alg».proof.Proof.LibRealEntry
import Idealize.ShloMosaic.Lib.ReduceAll
import Idealize.ShloMosaic.Lib.ValueIdx

noncomputable section

namespace Cert.Finite

open Idealize.ShloMosaic Idealize.SL.Sem

/-- The shape with no axes has one index. -/
instance : Subsingleton Cert.Pre_finite_inputs.S_.Idx := ⟨fun _ _ => funext fun d => d.elim0⟩

/-- One conjunct: if the conjunction over all entries of "|x| < +∞" holds, every entry is real. -/
theorem all_real {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (e : Host.reduce IntOp.andi
        (cmpf .olt (Host.absf x) (broadcastInDim s ![] hb (constant (F := Ideal) Cert.Pre_finite_inputs.S_ .f32 0x7F800000#32)))
        (constantI Cert.Pre_finite_inputs.S_ 1 1#1) hr hu ValueIdx.ix0 = 1#1) :
    ∀ j, ∃ a : ℝ, x j = (a : EReal) := by
  intro j
  have hj := Host.reduce_andi_all _ _ hr hu ValueIdx.ix0 e j
  exact Cert.LibRealEntry.real_of_abs_lt (x j) hj

/-- A conjunction of two one-bit arrays that is 1 at an index has both conjuncts 1 there. -/
theorem and_split {s : Shape} (a b : IVec s 1) (i : s.Idx) (h : andi a b i = 1#1) :
    a i = 1#1 ∧ b i = 1#1 := IntOp.andi_eq_one.1 h

/-- Under the precondition, every entry of each of the first five argument arrays is a real number. -/
theorem real_of_pre (m : (ℓ : Loc Cert.KernelIdeal.nD Cert.KernelIdeal.τ Cert.KernelIdeal.sig) → Buf (Elt Ideal) ℓ)
    (h : @Cert.Pre_KernelIdeal Cert.Pre_finite_inputs.Gen.facts m) (c : Dev Cert.KernelIdeal.nD) :
    (∀ j, ∃ a : ℝ, m ((c.tc : Thread Cert.KernelIdeal.nD Cert.KernelIdeal.τ).loc Cert.KernelIdeal.main_arg0) j = (a : EReal))
    ∧ (∀ j, ∃ a : ℝ, m ((c.tc : Thread Cert.KernelIdeal.nD Cert.KernelIdeal.τ).loc Cert.KernelIdeal.main_arg1) j = (a : EReal))
    ∧ (∀ j, ∃ a : ℝ, m ((c.tc : Thread Cert.KernelIdeal.nD Cert.KernelIdeal.τ).loc Cert.KernelIdeal.main_arg2) j = (a : EReal))
    ∧ (∀ j, ∃ a : ℝ, m ((c.tc : Thread Cert.KernelIdeal.nD Cert.KernelIdeal.τ).loc Cert.KernelIdeal.main_arg3) j = (a : EReal))
    ∧ (∀ j, ∃ a : ℝ, m ((c.tc : Thread Cert.KernelIdeal.nD Cert.KernelIdeal.τ).loc Cert.KernelIdeal.main_arg4) j = (a : EReal)) := by
  have h0 := congrFun (h c) ValueIdx.ix0
  unfold Cert.Pre_finite_inputs.fn Cert.Pre_finite_inputs.fn_part1 at h0
  dsimp only at h0
  obtain ⟨h01234, _⟩ := and_split _ _ _ h0
  obtain ⟨h0123, h4⟩ := and_split _ _ _ h01234
  obtain ⟨h012, h3⟩ := and_split _ _ _ h0123
  obtain ⟨h01, h2⟩ := and_split _ _ _ h012
  obtain ⟨h0', h1⟩ := and_split _ _ _ h01
  exact ⟨all_real _ _ _ _ h0', all_real _ _ _ _ h1, all_real _ _ _ _ h2, all_real _ _ _ _ h3,
    all_real _ _ _ _ h4⟩

end Cert.Finite

end
-- ==== Proof.lean ====
/-
  The certificate of  y = x · (W + U · diag S · V)ᵀ + bias  computed in two kernel regions (the rank-64 term folded
  into the weight block by block, then one matrix product accumulated over sixteen column blocks in a scratch)
  against  x · Wᵀ + ((x · Vᵀ) · S) · Uᵀ + bias  computed by three contractions.

  Frames. Each kernel program's @main is followed as a fold of buffer contents through its host reshapes and its
  two regions; a region's body is run once per grid point against proof data naming what every staging buffer
  holds after it, and region 1's invariant carries the scratch's partial sum from point to point. No step writes
  an argument. The reference's frame is its run with the result dropped.

  Values, on the extended reals. The kernel's result at (b, p, o) is  Σ_i x(b,p,i) · (W(o,i) + Σ_r (U(o,r) · S(r)) · V(r,i)) + bias(o):
  region 0's write-backs tile the folded weight, region 1's sixteen partial sums of 256 terms are the one sum over
  4096, and the reshapes only rename indices. The reference's result is
  (Σ_i x · W(o,i) + Σ_r ((Σ_i x · V(r,i)) · S(r)) · U(o,r)) + bias(o). For finite x, W, U, S, V the two are equal by
  distributing x over the inner sum and exchanging the two finite sums; finiteness is what the precondition gives.
  No operation of the kernel was rewritten by the idealization, so the preservation claim is trivial.
-/
import proofs.«111724_j9663676416607_2_alg».proof.Defs
import proofs.«111724_j9663676416607_2_alg».proof.Proof.Gen.Kernel
import proofs.«111724_j9663676416607_2_alg».proof.Proof.Gen.KernelIdeal
import proofs.«111724_j9663676416607_2_alg».proof.Proof.Gen.ReferenceIdeal
import proofs.«111724_j9663676416607_2_alg».proof.Proof.Gen.Pre_finite_inputs
import proofs.«111724_j9663676416607_2_alg».proof.Proof.KB.Run
import proofs.«111724_j9663676416607_2_alg».proof.Proof.KB.MergeBody
import proofs.«111724_j9663676416607_2_alg».proof.Proof.KB.MatmulBody
import proofs.«111724_j9663676416607_2_alg».proof.Proof.KI.RunValue
import proofs.«111724_j9663676416607_2_alg».proof.Proof.Bridge
import proofs.«111724_j9663676416607_2_alg».proof.Proof.Finite
import Idealize.ShloMosaic.Adequacy
import Idealize.ShloMosaic.Init

noncomputable section

namespace Cert.Proof

open Idealize.ShloMosaic Idealize.SL.Sem

/-- The word-level kernel runs to the end and leaves its arguments as launched. -/
theorem frame_k : Cert.frame_Kernel := fun m ρ _ =>
  Cert.Kernel.Hand.frame_all m ρ (fun c => Cert.Kernel.Hand.body_obligation0 _ c) (fun c => Cert.Kernel.Hand.body_obligation1 _ c)
    (fun c => Cert.Kernel.Hand.hin1 _ c) (fun c => Cert.Kernel.Hand.hout1 _ c)

/-- So does the idealized kernel. -/
theorem frame_ki : Cert.frame_KernelIdeal := fun m ρ _ =>
  Cert.KernelIdeal.Hand.frame_all m ρ (fun c => Cert.KernelIdeal.Hand.body_obligation0 _ c) (fun c => Cert.KernelIdeal.Hand.body_obligation1 _ c)
    (fun c => Cert.KernelIdeal.Hand.hin1 _ c) (fun c => Cert.KernelIdeal.Hand.hout1 _ c)

/-- The reference's frame is its run with the result dropped. -/
theorem frame_ri : Cert.frame_ReferenceIdeal := fun m ρ _ =>
  (θ_run Cert.ReferenceIdeal.defs _ _).mono (fun _ h c => (h c).2) (Cert.ReferenceIdeal.RefValue.run m ρ)

/-- On finite inputs the folded form and the three-contraction form are one function of the arguments. -/
theorem algebraic : Cert.algebraic_KernelIdeal_ReferenceIdeal := by
  intro m ρ m' ρ' hpre hagree
  refine ⟨_, Cert.KernelIdeal.Hand.run_value m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2.1, (hagree c).2.2.2.2.2]
  obtain ⟨h0, h1, h2, h3, h4⟩ := Cert.Finite.real_of_pre m hpre c
  exact Cert.Bridge.refBuf_eq_kerBuf _ _ _ _ _ _ h0 h1 h2 h3 h4

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
